-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096x8 : Shape := ⟨3, ![1024, 4096, 8]⟩
abbrev S_ : Shape := ⟨0, ![]⟩

class Facts : Prop where
  bcast_S_S1024x4096x8 : S_.BroadcastsInDim S1024x4096x8 (![] : Fin 0 → Fin S1024x4096x8.rank)
  reducesTo_S1024x4096x8_S_d0_1_2 : S1024x4096x8.ReducesTo [0, 1, 2] S_
  h_S_ : 0 < S_.numel

variable [Facts]

def fn {F : FTy → Type} [FloatOps F] (main_arg0 : FVec F S1024x4096x8 .f32) (main_arg1 : FVec F S1024x4096x8 .f32) : IVec S_ 1 :=
  let main_v0 : FVec F S1024x4096x8 .f32 := Host.absf main_arg0
  let main_cst : FVec F S_ .f32 := constant S_ .f32 0x7F800000#32
  let main_v1 : FVec F S1024x4096x8 .f32 := broadcastInDim S1024x4096x8 ![] bcast_S_S1024x4096x8 main_cst
  let main_v2 : IVec S1024x4096x8 1 := cmpf .olt main_v0 main_v1
  let main_c : IVec S_ 1 := constantI S_ 1 1#1
  let main_v3 : IVec S_ 1 := (fun x v => Host.reduce IntOp.andi x v reducesTo_S1024x4096x8_S_d0_1_2 h_S_) main_v2 main_c
  let main_v4 : FVec F S1024x4096x8 .f32 := Host.absf main_arg1
  let main_cst_0 : FVec F S_ .f32 := constant S_ .f32 0x7F800000#32
  let main_v5 : FVec F S1024x4096x8 .f32 := broadcastInDim S1024x4096x8 ![] bcast_S_S1024x4096x8 main_cst_0
  let main_v6 : IVec S1024x4096x8 1 := cmpf .olt main_v4 main_v5
  let main_c_1 : IVec S_ 1 := constantI S_ 1 1#1
  let main_v7 : IVec S_ 1 := (fun x v => Host.reduce IntOp.andi x v reducesTo_S1024x4096x8_S_d0_1_2 h_S_) main_v6 main_c_1
  let main_v8 : IVec S_ 1 := andi main_v3 main_v7
  main_v8
-- ==== Kernel.lean ====
abbrev S1024x4096x8 : Shape := ⟨3, ![1024, 4096, 8]⟩
abbrev S8x1024x4096 : Shape := ⟨3, ![8, 1024, 4096]⟩
abbrev S8x128x512 : Shape := ⟨3, ![8, 128, 512]⟩
abbrev S1x128x512 : Shape := ⟨3, ![1, 128, 512]⟩
abbrev S128x512 : Shape := ⟨2, ![128, 512]⟩

abbrev nBuf : Space → Nat
  | .hbm => 6
  | .vmem => 6
  | .smem => 0
  | _ => 0

abbrev bufTy : (tb : Table) → Fin (tcTables nBuf tb) → BufTy
  | .hbm, ⟨0, _⟩ => ⟨S1024x4096x8, .f32⟩
  | .hbm, ⟨1, _⟩ => ⟨S1024x4096x8, .f32⟩
  | .hbm, ⟨2, _⟩ => ⟨S8x1024x4096, .f32⟩
  | .hbm, ⟨3, _⟩ => ⟨S8x1024x4096, .f32⟩
  | .hbm, ⟨4, _⟩ => ⟨S8x1024x4096, .f32⟩
  | .hbm, ⟨5, _⟩ => ⟨S1024x4096x8, .f32⟩
  | .local _ .vmem, ⟨0, _⟩ => ⟨S8x128x512, .f32⟩
  | .local _ .vmem, ⟨1, _⟩ => ⟨S8x128x512, .f32⟩
  | .local _ .vmem, ⟨2, _⟩ => ⟨S8x128x512, .f32⟩
  | .local _ .vmem, ⟨3, _⟩ => ⟨S8x128x512, .f32⟩
  | .local _ .vmem, ⟨4, _⟩ => ⟨S8x128x512, .f32⟩
  | .local _ .vmem, ⟨5, _⟩ => ⟨S8x128x512, .f32⟩
  | _, _ => ⟨S1024x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S1024x4096x8_S8x1024x4096_2_0_1 : S1024x4096x8.Transposes [2, 0, 1] S8x1024x4096
  inb_S8x128x512_S1x128x512_0_0_0 : ∀ a, (![0, 0, 0] : Fin 3 → Nat) a + S1x128x512.size a ≤ S8x128x512.size a
  h_S1x128x512 : 0 < S1x128x512.numel
  shapeCasts_S1x128x512_S128x512 : S1x128x512.ShapeCasts S128x512
  inb_S8x128x512_S1x128x512_1_0_0 : ∀ a, (![1, 0, 0] : Fin 3 → Nat) a + S1x128x512.size a ≤ S8x128x512.size a
  inb_S8x128x512_S1x128x512_2_0_0 : ∀ a, (![2, 0, 0] : Fin 3 → Nat) a + S1x128x512.size a ≤ S8x128x512.size a
  inb_S8x128x512_S1x128x512_3_0_0 : ∀ a, (![3, 0, 0] : Fin 3 → Nat) a + S1x128x512.size a ≤ S8x128x512.size a
  inb_S8x128x512_S1x128x512_4_0_0 : ∀ a, (![4, 0, 0] : Fin 3 → Nat) a + S1x128x512.size a ≤ S8x128x512.size a
  inb_S8x128x512_S1x128x512_5_0_0 : ∀ a, (![5, 0, 0] : Fin 3 → Nat) a + S1x128x512.size a ≤ S8x128x512.size a
  inb_S8x128x512_S1x128x512_6_0_0 : ∀ a, (![6, 0, 0] : Fin 3 → Nat) a + S1x128x512.size a ≤ S8x128x512.size a
  inb_S8x128x512_S1x128x512_7_0_0 : ∀ a, (![7, 0, 0] : Fin 3 → Nat) a + S1x128x512.size a ≤ S8x128x512.size a
  natLt_1_32 : 1 < 32
  shapeCasts_S128x512_S1x128x512 : S128x512.ShapeCasts S1x128x512
  transposes_S8x1024x4096_S1024x4096x8_1_2_0 : S8x1024x4096.Transposes [1, 2, 0] S1024x4096x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S8x1024x4096.size a
  hwx0_0 : ∀ i : grid0.Coords, EltTy.bits .f32 = 32 ∨ (Rect.block (s := S8x1024x4096) S8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S8x1024x4096.size a
  hwx0_1 : ∀ i : grid0.Coords, EltTy.bits .f32 = 32 ∨ (Rect.block (s := S8x1024x4096) S8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x512.size a ≤ S8x1024x4096.size a
  hwx0_2 : ∀ i : grid0.Coords, EltTy.bits .f32 = 32 ∨ (Rect.block (s := S8x1024x4096) S8x128x512.size (cc0_transform_2 i) (hinb0_2 i)).WholeWords (EltTy.packing .f32)

variable [Facts₀]

abbrev win0_0 : Pipeline.Window sig grid0 :=
  Pipeline.Window.ofSpec (Memref.whole main_v0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x4096x8 : Shape := ⟨3, ![1024, 4096, 8]⟩
abbrev S1024x4096x1 : Shape := ⟨3, ![1024, 4096, 1]⟩
abbrev S1024x4096 : Shape := ⟨2, ![1024, 4096]⟩
abbrev S_ : Shape := ⟨0, ![]⟩

abbrev nBuf : Space → Nat
  | .hbm => 337
  | .vmem => 0
  | .smem => 0
  | _ => 0

abbrev hbmTy0_0 (i : Nat) : BufTy := match i % 128 with
  | 0 => ⟨S1024x4096x8, .f32⟩
  | 1 => ⟨S1024x4096x8, .f32⟩
  | 2 => ⟨S1024x4096x8, .i32⟩
  | 3 => ⟨S1024x4096x1, .i32⟩
  | 4 => ⟨S1024x4096, .i32⟩
  | 5 => ⟨S1024x4096x1, .i32⟩
  | 6 => ⟨S1024x4096, .i32⟩
  | 7 => ⟨S_, .i32⟩
  | 8 => ⟨S1024x4096, .i32⟩
  | 9 => ⟨S1024x4096, .i32⟩
  | 10 => ⟨S1024x4096x1, .i32⟩
  | 11 => ⟨S1024x4096, .i32⟩
  | 12 => ⟨S_, .i32⟩
  | 13 => ⟨S1024x4096, .i32⟩
  | 14 => ⟨S1024x4096, .i32⟩
  | 15 => ⟨S1024x4096, .i32⟩
  | 16 => ⟨S1024x4096x1, .i32⟩
  | 17 => ⟨S1024x4096, .i32⟩
  | 18 => ⟨S_, .i32⟩
  | 19 => ⟨S1024x4096, .i32⟩
  | 20 => ⟨S1024x4096, .i32⟩
  | 21 => ⟨S1024x4096, .i32⟩
  | 22 => ⟨S1024x4096x1, .i32⟩
  | 23 => ⟨S1024x4096, .i32⟩
  | 24 => ⟨S1024x4096, .i32⟩
  | 25 => ⟨S1024x4096x1, .i32⟩
  | 26 => ⟨S1024x4096, .i32⟩
  | 27 => ⟨S_, .i32⟩
  | 28 => ⟨S1024x4096, .i32⟩
  | 29 => ⟨S1024x4096, .i32⟩
  | 30 => ⟨S1024x4096x1, .i32⟩
  | 31 => ⟨S1024x4096, .i32⟩
  | 32 => ⟨S_, .i32⟩
  | 33 => ⟨S1024x4096, .i32⟩
  | 34 => ⟨S1024x4096, .i32⟩
  | 35 => ⟨S1024x4096, .i32⟩
  | 36 => ⟨S1024x4096x1, .i32⟩
  | 37 => ⟨S1024x4096, .i32⟩
  | 38 => ⟨S1024x4096, .i32⟩
  | 39 => ⟨S1024x4096x8, .i32⟩
  | 40 => ⟨S1024x4096x1, .i32⟩
  | 41 => ⟨S1024x4096, .i32⟩
  | 42 => ⟨S1024x4096x1, .i32⟩
  | 43 => ⟨S1024x4096, .i32⟩
  | 44 => ⟨S_, .i32⟩
  | 45 => ⟨S1024x4096, .i32⟩
  | 46 => ⟨S1024x4096, .i32⟩
  | 47 => ⟨S1024x4096x1, .i32⟩
  | 48 => ⟨S1024x4096, .i32⟩
  | 49 => ⟨S_, .i32⟩
  | 50 => ⟨S1024x4096, .i32⟩
  | 51 => ⟨S1024x4096, .i32⟩
  | 52 => ⟨S1024x4096, .i32⟩
  | 53 => ⟨S1024x4096x1, .i32⟩
  | 54 => ⟨S1024x4096, .i32⟩
  | 55 => ⟨S_, .i32⟩
  | 56 => ⟨S1024x4096, .i32⟩
  | 57 => ⟨S1024x4096, .i32⟩
  | 58 => ⟨S1024x4096, .i32⟩
  | 59 => ⟨S1024x4096x1, .i32⟩
  | 60 => ⟨S1024x4096, .i32⟩
  | 61 => ⟨S1024x4096, .i32⟩
  | 62 => ⟨S1024x4096x1, .i32⟩
  | 63 => ⟨S1024x4096, .i32⟩
  | 64 => ⟨S_, .i32⟩
  | 65 => ⟨S1024x4096, .i32⟩
  | 66 => ⟨S1024x4096, .i32⟩
  | 67 => ⟨S1024x4096x1, .i32⟩
  | 68 => ⟨S1024x4096, .i32⟩
  | 69 => ⟨S_, .i32⟩
  | 70 => ⟨S1024x4096, .i32⟩
  | 71 => ⟨S1024x4096, .i32⟩
  | 72 => ⟨S1024x4096, .i32⟩
  | 73 => ⟨S1024x4096x1, .i32⟩
  | 74 => ⟨S1024x4096, .i32⟩
  | 75 => ⟨S1024x4096, .i32⟩
  | 76 => ⟨S_, .i32⟩
  | 77 => ⟨S1024x4096, .i32⟩
  | 78 => ⟨S1024x4096, .i1⟩
  | 79 => ⟨S_, .i32⟩
  | 80 => ⟨S1024x4096, .i32⟩
  | 81 => ⟨S1024x4096, .i32⟩
  | 82 => ⟨S1024x4096, .i32⟩
  | 83 => ⟨S_, .i32⟩
  | 84 => ⟨S1024x4096, .i32⟩
  | 85 => ⟨S1024x4096, .i1⟩
  | 86 => ⟨S_, .i32⟩
  | 87 => ⟨S1024x4096, .i32⟩
  | 88 => ⟨S1024x4096, .i32⟩
  | 89 => ⟨S1024x4096, .i32⟩
  | 90 => ⟨S_, .i32⟩
  | 91 => ⟨S1024x4096, .i32⟩
  | 92 => ⟨S1024x4096, .i1⟩
  | 93 => ⟨S_, .i32⟩
  | 94 => ⟨S_, .i32⟩
  | 95 => ⟨S1024x4096, .i32⟩
  | 96 => ⟨S1024x4096, .i32⟩
  | 97 => ⟨S_, .i32⟩
  | 98 => ⟨S1024x4096, .i32⟩
  | 99 => ⟨S1024x4096, .i32⟩
  | 100 => ⟨S_, .i32⟩
  | 101 => ⟨S1024x4096, .i32⟩
  | 102 => ⟨S1024x4096, .i1⟩
  | 103 => ⟨S_, .i32⟩
  | 104 => ⟨S_, .i32⟩
  | 105 => ⟨S1024x4096, .i32⟩
  | 106 => ⟨S1024x4096, .i32⟩
  | 107 => ⟨S_, .i32⟩
  | 108 => ⟨S1024x4096, .i32⟩
  | 109 => ⟨S1024x4096, .i32⟩
  | 110 => ⟨S1024x4096, .i32⟩
  | 111 => ⟨S1024x4096, .i32⟩
  | 112 => ⟨S_, .i32⟩
  | 113 => ⟨S1024x4096, .i32⟩
  | 114 => ⟨S1024x4096, .i32⟩
  | 115 => ⟨S_, .i32⟩
  | 116 => ⟨S1024x4096, .i32⟩
  | 117 => ⟨S_, .i32⟩
  | 118 => ⟨S1024x4096, .i32⟩
  | 119 => ⟨S1024x4096, .i1⟩
  | 120 => ⟨S1024x4096, .i32⟩
  | 121 => ⟨S1024x4096, .i32⟩
  | 122 => ⟨S_, .i32⟩
  | 123 => ⟨S1024x4096, .i32⟩
  | 124 => ⟨S1024x4096, .i1⟩
  | 125 => ⟨S1024x4096, .i32⟩
  | 126 => ⟨S1024x4096, .i32⟩
  | 127 => ⟨S_, .i32⟩
  | _ => ⟨S1024x4096x8, .f32⟩

abbrev hbmTy0_1 (i : Nat) : BufTy := match i % 128 with
  | 0 => ⟨S1024x4096, .i32⟩
  | 1 => ⟨S1024x4096, .i1⟩
  | 2 => ⟨S1024x4096, .i32⟩
  | 3 => ⟨S1024x4096, .i32⟩
  | 4 => ⟨S_, .i32⟩
  | 5 => ⟨S1024x4096, .i32⟩
  | 6 => ⟨S1024x4096, .i1⟩
  | 7 => ⟨S1024x4096, .i32⟩
  | 8 => ⟨S1024x4096, .i32⟩
  | 9 => ⟨S_, .i32⟩
  | 10 => ⟨S1024x4096, .i32⟩
  | 11 => ⟨S1024x4096, .i1⟩
  | 12 => ⟨S1024x4096, .i32⟩
  | 13 => ⟨S1024x4096, .i32⟩
  | 14 => ⟨S_, .i32⟩
  | 15 => ⟨S1024x4096, .i32⟩
  | 16 => ⟨S1024x4096, .i1⟩
  | 17 => ⟨S1024x4096, .i32⟩
  | 18 => ⟨S1024x4096, .i32⟩
  | 19 => ⟨S_, .i32⟩
  | 20 => ⟨S1024x4096, .i32⟩
  | 21 => ⟨S1024x4096, .i1⟩
  | 22 => ⟨S1024x4096, .i32⟩
  | 23 => ⟨S1024x4096, .i32⟩
  | 24 => ⟨S1024x4096, .i32⟩
  | 25 => ⟨S_, .i32⟩
  | 26 => ⟨S1024x4096, .i32⟩
  | 27 => ⟨S1024x4096, .i32⟩
  | 28 => ⟨S_, .i32⟩
  | 29 => ⟨S1024x4096, .i32⟩
  | 30 => ⟨S1024x4096, .i32⟩
  | 31 => ⟨S_, .i32⟩
  | 32 => ⟨S1024x4096, .i32⟩
  | 33 => ⟨S1024x4096, .i32⟩
  | 34 => ⟨S1024x4096, .i32⟩
  | 35 => ⟨S_, .i32⟩
  | 36 => ⟨S1024x4096, .i32⟩
  | 37 => ⟨S1024x4096, .i32⟩
  | 38 => ⟨S1024x4096, .i32⟩
  | 39 => ⟨S1024x4096, .i32⟩
  | 40 => ⟨S1024x4096, .i32⟩
  | 41 => ⟨S_, .i32⟩
  | 42 => ⟨S1024x4096, .i32⟩
  | 43 => ⟨S1024x4096, .i32⟩
  | 44 => ⟨S_, .i32⟩
  | 45 => ⟨S1024x4096, .i32⟩
  | 46 => ⟨S1024x4096, .i32⟩
  | 47 => ⟨S1024x4096, .i1⟩
  | 48 => ⟨S1024x4096, .i1⟩
  | 49 => ⟨S_, .i32⟩
  | 50 => ⟨S1024x4096, .i32⟩
  | 51 => ⟨S1024x4096, .i32⟩
  | 52 => ⟨S_, .i32⟩
  | 53 => ⟨S1024x4096, .i32⟩
  | 54 => ⟨S1024x4096, .i1⟩
  | 55 => ⟨S1024x4096, .i1⟩
  | 56 => ⟨S1024x4096, .i1⟩
  | 57 => ⟨S_, .i32⟩
  | 58 => ⟨S1024x4096, .i32⟩
  | 59 => ⟨S1024x4096, .i1⟩
  | 60 => ⟨S1024x4096, .i1⟩
  | 61 => ⟨S1024x4096, .i32⟩
  | 62 => ⟨S1024x4096, .i32⟩
  | 63 => ⟨S1024x4096, .i32⟩
  | 64 => ⟨S_, .i32⟩
  | 65 => ⟨S1024x4096, .i32⟩
  | 66 => ⟨S1024x4096, .i32⟩
  | 67 => ⟨S_, .i32⟩
  | 68 => ⟨S1024x4096, .i32⟩
  | 69 => ⟨S1024x4096, .i1⟩
  | 70 => ⟨S_, .i32⟩
  | 71 => ⟨S_, .i32⟩
  | 72 => ⟨S1024x4096, .i32⟩
  | 73 => ⟨S1024x4096, .i32⟩
  | 74 => ⟨S1024x4096, .i32⟩
  | 75 => ⟨S_, .i32⟩
  | 76 => ⟨S1024x4096, .i32⟩
  | 77 => ⟨S1024x4096, .i32⟩
  | 78 => ⟨S_, .i32⟩
  | 79 => ⟨S1024x4096, .i32⟩
  | 80 => ⟨S1024x4096, .i1⟩
  | 81 => ⟨S_, .i32⟩
  | 82 => ⟨S_, .i32⟩
  | 83 => ⟨S1024x4096, .i32⟩
  | 84 => ⟨S1024x4096, .i32⟩
  | 85 => ⟨S_, .i32⟩
  | 86 => ⟨S_, .i32⟩
  | 87 => ⟨S1024x4096, .i32⟩
  | 88 => ⟨S1024x4096, .i32⟩
  | 89 => ⟨S_, .i32⟩
  | 90 => ⟨S1024x4096, .i32⟩
  | 91 => ⟨S1024x4096, .i32⟩
  | 92 => ⟨S1024x4096, .i32⟩
  | 93 => ⟨S_, .i32⟩
  | 94 => ⟨S_, .i32⟩
  | 95 => ⟨S_, .i32⟩
  | 96 => ⟨S1024x4096, .i32⟩
  | 97 => ⟨S1024x4096, .i32⟩
  | 98 => ⟨S_, .i32⟩
  | 99 => ⟨S1024x4096, .i32⟩
  | 100 => ⟨S1024x4096, .i32⟩
  | 101 => ⟨S1024x4096, .i32⟩
  | 102 => ⟨S1024x4096, .i32⟩
  | 103 => ⟨S1024x4096, .i32⟩
  | 104 => ⟨S_, .i32⟩
  | 105 => ⟨S1024x4096, .i32⟩
  | 106 => ⟨S1024x4096, .i32⟩
  | 107 => ⟨S_, .i32⟩
  | 108 => ⟨S1024x4096, .i32⟩
  | 109 => ⟨S1024x4096, .i32⟩
  | 110 => ⟨S1024x4096, .i1⟩
  | 111 => ⟨S1024x4096, .i1⟩
  | 112 => ⟨S_, .i32⟩
  | 113 => ⟨S1024x4096, .i32⟩
  | 114 => ⟨S1024x4096, .i32⟩
  | 115 => ⟨S_, .i32⟩
  | 116 => ⟨S1024x4096, .i32⟩
  | 117 => ⟨S1024x4096, .i1⟩
  | 118 => ⟨S1024x4096, .i1⟩
  | 119 => ⟨S1024x4096, .i1⟩
  | 120 => ⟨S_, .i32⟩
  | 121 => ⟨S1024x4096, .i32⟩
  | 122 => ⟨S1024x4096, .i1⟩
  | 123 => ⟨S1024x4096, .i1⟩
  | 124 => ⟨S1024x4096, .i32⟩
  | 125 => ⟨S1024x4096, .i32⟩
  | 126 => ⟨S_, .i32⟩
  | 127 => ⟨S1024x4096, .i32⟩
  | _ => ⟨S1024x4096x8, .f32⟩

abbrev hbmTy0_2 (i : Nat) : BufTy := match i % 128 with
  | 0 => ⟨S1024x4096, .i32⟩
  | 1 => ⟨S1024x4096, .i32⟩
  | 2 => ⟨S_, .i32⟩
  | 3 => ⟨S1024x4096, .i32⟩
  | 4 => ⟨S1024x4096, .i1⟩
  | 5 => ⟨S_, .i32⟩
  | 6 => ⟨S_, .i32⟩
  | 7 => ⟨S1024x4096, .i32⟩
  | 8 => ⟨S1024x4096, .i32⟩
  | 9 => ⟨S1024x4096, .i32⟩
  | 10 => ⟨S_, .i32⟩
  | 11 => ⟨S1024x4096, .i32⟩
  | 12 => ⟨S1024x4096, .i1⟩
  | 13 => ⟨S_, .i32⟩
  | 14 => ⟨S_, .i32⟩
  | 15 => ⟨S1024x4096, .i32⟩
  | 16 => ⟨S1024x4096, .i32⟩
  | 17 => ⟨S_, .i32⟩
  | 18 => ⟨S1024x4096, .i32⟩
  | 19 => ⟨S1024x4096, .i1⟩
  | 20 => ⟨S1024x4096, .i32⟩
  | 21 => ⟨S1024x4096, .i32⟩
  | 22 => ⟨S1024x4096, .i32⟩
  | 23 => ⟨S_, .i32⟩
  | 24 => ⟨S1024x4096, .i32⟩
  | 25 => ⟨S1024x4096, .i1⟩
  | 26 => ⟨S_, .i32⟩
  | 27 => ⟨S_, .i32⟩
  | 28 => ⟨S1024x4096, .i32⟩
  | 29 => ⟨S1024x4096, .i32⟩
  | 30 => ⟨S_, .i32⟩
  | 31 => ⟨S_, .i32⟩
  | 32 => ⟨S1024x4096, .i32⟩
  | 33 => ⟨S1024x4096, .i32⟩
  | 34 => ⟨S1024x4096, .i32⟩
  | 35 => ⟨S_, .i32⟩
  | 36 => ⟨S1024x4096, .i32⟩
  | 37 => ⟨S1024x4096, .i32⟩
  | 38 => ⟨S_, .i32⟩
  | 39 => ⟨S1024x4096, .i32⟩
  | 40 => ⟨S1024x4096, .i32⟩
  | 41 => ⟨S_, .i32⟩
  | 42 => ⟨S1024x4096, .i32⟩
  | 43 => ⟨S1024x4096, .i32⟩
  | 44 => ⟨S_, .i32⟩
  | 45 => ⟨S1024x4096, .i32⟩
  | 46 => ⟨S1024x4096, .i32⟩
  | 47 => ⟨S_, .i32⟩
  | 48 => ⟨S1024x4096, .i32⟩
  | 49 => ⟨S1024x4096, .i32⟩
  | 50 => ⟨S_, .i32⟩
  | 51 => ⟨S1024x4096, .i32⟩
  | 52 => ⟨S1024x4096, .i32⟩
  | 53 => ⟨S_, .i32⟩
  | 54 => ⟨S1024x4096, .i32⟩
  | 55 => ⟨S1024x4096, .i32⟩
  | 56 => ⟨S_, .i32⟩
  | 57 => ⟨S1024x4096, .i32⟩
  | 58 => ⟨S1024x4096, .i32⟩
  | 59 => ⟨S_, .i32⟩
  | 60 => ⟨S1024x4096, .i32⟩
  | 61 => ⟨S1024x4096, .i32⟩
  | 62 => ⟨S_, .i32⟩
  | 63 => ⟨S1024x4096, .i32⟩
  | 64 => ⟨S1024x4096, .i32⟩
  | 65 => ⟨S_, .i32⟩
  | 66 => ⟨S1024x4096, .i32⟩
  | 67 => ⟨S1024x4096, .i32⟩
  | 68 => ⟨S_, .i32⟩
  | 69 => ⟨S1024x4096, .i32⟩
  | 70 => ⟨S1024x4096, .i32⟩
  | 71 => ⟨S1024x4096x1, .i32⟩
  | 72 => ⟨S1024x4096x1, .i32⟩
  | 73 => ⟨S1024x4096x1, .i32⟩
  | 74 => ⟨S1024x4096x1, .i32⟩
  | 75 => ⟨S1024x4096x1, .i32⟩
  | 76 => ⟨S1024x4096x1, .i32⟩
  | 77 => ⟨S1024x4096x1, .i32⟩
  | 78 => ⟨S1024x4096x1, .i32⟩
  | 79 => ⟨S1024x4096x8, .i32⟩
  | 80 => ⟨S1024x4096x8, .f32⟩
  | _ => ⟨S1024x4096x8, .f32⟩

abbrev hbmTy (i : Nat) : BufTy := match i / 128 with
  | 0 => hbmTy0_0 i
  | 1 => hbmTy0_1 i
  | 2 => hbmTy0_2 i
  | _ => ⟨S1024x4096x8, .f32⟩

abbrev bufTy : (tb : Table) → Fin (tcTables nBuf tb) → BufTy
  | .hbm, ⟨i, _⟩ => hbmTy i
  | _, _ => ⟨S1024x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_5 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_6 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c_7 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_c_8 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_c_9 : Ref sig .tc := ⟨.hbm, 76, rfl⟩
abbrev main_v64 : Ref sig .tc := ⟨.hbm, 77, rfl⟩
abbrev main_v65 : Ref sig .tc := ⟨.hbm, 78, rfl⟩
abbrev main_c_10 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_c_11 : Ref sig .tc := ⟨.hbm, 83, rfl⟩
abbrev main_v69 : Ref sig .tc := ⟨.hbm, 84, rfl⟩
abbrev main_v70 : Ref sig .tc := ⟨.hbm, 85, rfl⟩
abbrev main_c_12 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_c_13 : Ref sig .tc := ⟨.hbm, 90, rfl⟩
abbrev main_v74 : Ref sig .tc := ⟨.hbm, 91, rfl⟩
abbrev main_v75 : Ref sig .tc := ⟨.hbm, 92, rfl⟩
abbrev main_c_14 : Ref sig .tc := ⟨.hbm, 93, rfl⟩
abbrev main_call2_v0 : Ref sig .tc := ⟨.hbm, 94, rfl⟩
abbrev main_call2_v1 : Ref sig .tc := ⟨.hbm, 95, rfl⟩
abbrev main_v76 : Ref sig .tc := ⟨.hbm, 96, rfl⟩
abbrev main_c_15 : Ref sig .tc := ⟨.hbm, 97, rfl⟩
abbrev main_v77 : Ref sig .tc := ⟨.hbm, 98, rfl⟩
abbrev main_v78 : Ref sig .tc := ⟨.hbm, 99, rfl⟩
abbrev main_c_16 : Ref sig .tc := ⟨.hbm, 100, rfl⟩
abbrev main_v79 : Ref sig .tc := ⟨.hbm, 101, rfl⟩
abbrev main_v80 : Ref sig .tc := ⟨.hbm, 102, rfl⟩
abbrev main_c_17 : Ref sig .tc := ⟨.hbm, 103, rfl⟩
abbrev main_call3_v0 : Ref sig .tc := ⟨.hbm, 104, rfl⟩
abbrev main_call3_v1 : Ref sig .tc := ⟨.hbm, 105, rfl⟩
abbrev main_v81 : Ref sig .tc := ⟨.hbm, 106, rfl⟩
abbrev main_c_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_19 : Ref sig .tc := ⟨.hbm, 112, rfl⟩
abbrev main_v86 : Ref sig .tc := ⟨.hbm, 113, rfl⟩
abbrev main_v87 : Ref sig .tc := ⟨.hbm, 114, rfl⟩
abbrev main_c_20 : Ref sig .tc := ⟨.hbm, 115, rfl⟩
abbrev main_v88 : Ref sig .tc := ⟨.hbm, 116, rfl⟩
abbrev main_c_21 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_22 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_23 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_c_24 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_25 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_c_26 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_c_27 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_c_28 : Ref sig .tc := ⟨.hbm, 153, rfl⟩
abbrev main_v118 : Ref sig .tc := ⟨.hbm, 154, rfl⟩
abbrev main_v119 : Ref sig .tc := ⟨.hbm, 155, rfl⟩
abbrev main_c_29 : Ref sig .tc := ⟨.hbm, 156, rfl⟩
abbrev main_v120 : Ref sig .tc := ⟨.hbm, 157, rfl⟩
abbrev main_v121 : Ref sig .tc := ⟨.hbm, 158, rfl⟩
abbrev main_c_30 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_c_31 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_32 : Ref sig .tc := ⟨.hbm, 169, rfl⟩
abbrev main_v130 : Ref sig .tc := ⟨.hbm, 170, rfl⟩
abbrev main_v131 : Ref sig .tc := ⟨.hbm, 171, rfl⟩
abbrev main_c_33 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_c_34 : Ref sig .tc := ⟨.hbm, 177, rfl⟩
abbrev main_v136 : Ref sig .tc := ⟨.hbm, 178, rfl⟩
abbrev main_v137 : Ref sig .tc := ⟨.hbm, 179, rfl⟩
abbrev main_c_35 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_c_36 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_c_37 : Ref sig .tc := ⟨.hbm, 192, rfl⟩
abbrev main_v148 : Ref sig .tc := ⟨.hbm, 193, rfl⟩
abbrev main_v149 : Ref sig .tc := ⟨.hbm, 194, rfl⟩
abbrev main_c_38 : Ref sig .tc := ⟨.hbm, 195, rfl⟩
abbrev main_v150 : Ref sig .tc := ⟨.hbm, 196, rfl⟩
abbrev main_v151 : Ref sig .tc := ⟨.hbm, 197, rfl⟩
abbrev main_c_39 : Ref sig .tc := ⟨.hbm, 198, rfl⟩
abbrev main_call4_v0 : Ref sig .tc := ⟨.hbm, 199, rfl⟩
abbrev main_call4_v1 : Ref sig .tc := ⟨.hbm, 200, rfl⟩
abbrev main_v152 : Ref sig .tc := ⟨.hbm, 201, rfl⟩
abbrev main_v153 : Ref sig .tc := ⟨.hbm, 202, rfl⟩
abbrev main_c_40 : Ref sig .tc := ⟨.hbm, 203, rfl⟩
abbrev main_v154 : Ref sig .tc := ⟨.hbm, 204, rfl⟩
abbrev main_v155 : Ref sig .tc := ⟨.hbm, 205, rfl⟩
abbrev main_c_41 : Ref sig .tc := ⟨.hbm, 206, rfl⟩
abbrev main_v156 : Ref sig .tc := ⟨.hbm, 207, rfl⟩
abbrev main_v157 : Ref sig .tc := ⟨.hbm, 208, rfl⟩
abbrev main_c_42 : Ref sig .tc := ⟨.hbm, 209, rfl⟩
abbrev main_call5_v0 : Ref sig .tc := ⟨.hbm, 210, rfl⟩
abbrev main_call5_v1 : Ref sig .tc := ⟨.hbm, 211, rfl⟩
abbrev main_v158 : Ref sig .tc := ⟨.hbm, 212, rfl⟩
abbrev main_c_43 : Ref sig .tc := ⟨.hbm, 213, rfl⟩
abbrev main_call6_v0 : Ref sig .tc := ⟨.hbm, 214, rfl⟩
abbrev main_call6_v1 : Ref sig .tc := ⟨.hbm, 215, rfl⟩
abbrev main_v159 : Ref sig .tc := ⟨.hbm, 216, rfl⟩
abbrev main_c_44 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_c_45 : Ref sig .tc := ⟨.hbm, 221, rfl⟩
abbrev main_c_46 : Ref sig .tc := ⟨.hbm, 222, rfl⟩
abbrev main_call7_v0 : Ref sig .tc := ⟨.hbm, 223, rfl⟩
abbrev main_call7_v1 : Ref sig .tc := ⟨.hbm, 224, rfl⟩
abbrev main_call7_v2 : Ref sig .tc := ⟨.hbm, 225, rfl⟩
abbrev main_call7_v3 : Ref sig .tc := ⟨.hbm, 226, rfl⟩
abbrev main_call7_v4 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_c_47 : Ref sig .tc := ⟨.hbm, 232, rfl⟩
abbrev main_v167 : Ref sig .tc := ⟨.hbm, 233, rfl⟩
abbrev main_v168 : Ref sig .tc := ⟨.hbm, 234, rfl⟩
abbrev main_c_48 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_c_49 : Ref sig .tc := ⟨.hbm, 240, rfl⟩
abbrev main_v173 : Ref sig .tc := ⟨.hbm, 241, rfl⟩
abbrev main_v174 : Ref sig .tc := ⟨.hbm, 242, rfl⟩
abbrev main_c_50 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_c_51 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_c_52 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_c_53 : Ref sig .tc := ⟨.hbm, 258, rfl⟩
abbrev main_v187 : Ref sig .tc := ⟨.hbm, 259, rfl⟩
abbrev main_v188 : Ref sig .tc := ⟨.hbm, 260, rfl⟩
abbrev main_c_54 : Ref sig .tc := ⟨.hbm, 261, rfl⟩
abbrev main_c_55 : Ref sig .tc := ⟨.hbm, 262, rfl⟩
abbrev main_call8_v0 : Ref sig .tc := ⟨.hbm, 263, rfl⟩
abbrev main_call8_v1 : Ref sig .tc := ⟨.hbm, 264, rfl⟩
abbrev main_v189 : Ref sig .tc := ⟨.hbm, 265, rfl⟩
abbrev main_c_56 : Ref sig .tc := ⟨.hbm, 266, rfl⟩
abbrev main_v190 : Ref sig .tc := ⟨.hbm, 267, rfl⟩
abbrev main_v191 : Ref sig .tc := ⟨.hbm, 268, rfl⟩
abbrev main_c_57 : Ref sig .tc := ⟨.hbm, 269, rfl⟩
abbrev main_call9_v0 : Ref sig .tc := ⟨.hbm, 270, rfl⟩
abbrev main_call9_v1 : Ref sig .tc := ⟨.hbm, 271, rfl⟩
abbrev main_v192 : Ref sig .tc := ⟨.hbm, 272, rfl⟩
abbrev main_c_58 : Ref sig .tc := ⟨.hbm, 273, rfl⟩
abbrev main_v193 : Ref sig .tc := ⟨.hbm, 274, rfl⟩
abbrev main_v194 : Ref sig .tc := ⟨.hbm, 275, rfl⟩
abbrev main_call10_v0 : Ref sig .tc := ⟨.hbm, 276, rfl⟩
abbrev main_v195 : Ref sig .tc := ⟨.hbm, 277, rfl⟩
abbrev main_v196 : Ref sig .tc := ⟨.hbm, 278, rfl⟩
abbrev main_c_59 : Ref sig .tc := ⟨.hbm, 279, rfl⟩
abbrev main_v197 : Ref sig .tc := ⟨.hbm, 280, rfl⟩
abbrev main_v198 : Ref sig .tc := ⟨.hbm, 281, rfl⟩
abbrev main_c_60 : Ref sig .tc := ⟨.hbm, 282, rfl⟩
abbrev main_call12_v0 : Ref sig .tc := ⟨.hbm, 283, rfl⟩
abbrev main_call12_v1 : Ref sig .tc := ⟨.hbm, 284, rfl⟩
abbrev main_v199 : Ref sig .tc := ⟨.hbm, 285, rfl⟩
abbrev main_c_61 : Ref sig .tc := ⟨.hbm, 286, rfl⟩
abbrev main_call13_v0 : Ref sig .tc := ⟨.hbm, 287, rfl⟩
abbrev main_call13_v1 : Ref sig .tc := ⟨.hbm, 288, rfl⟩
abbrev main_v200 : Ref sig .tc := ⟨.hbm, 289, rfl⟩
abbrev main_v201 : Ref sig .tc := ⟨.hbm, 290, rfl⟩
abbrev main_c_62 : Ref sig .tc := ⟨.hbm, 291, rfl⟩
abbrev main_v202 : Ref sig .tc := ⟨.hbm, 292, rfl⟩
abbrev main_v203 : Ref sig .tc := ⟨.hbm, 293, rfl⟩
abbrev main_c_63 : Ref sig .tc := ⟨.hbm, 294, rfl⟩
abbrev main_v204 : Ref sig .tc := ⟨.hbm, 295, rfl⟩
abbrev main_v205 : Ref sig .tc := ⟨.hbm, 296, rfl⟩
abbrev main_c_64 : Ref sig .tc := ⟨.hbm, 297, rfl⟩
abbrev main_v206 : Ref sig .tc := ⟨.hbm, 298, rfl⟩
abbrev main_v207 : Ref sig .tc := ⟨.hbm, 299, rfl⟩
abbrev main_c_65 : Ref sig .tc := ⟨.hbm, 300, rfl⟩
abbrev main_v208 : Ref sig .tc := ⟨.hbm, 301, rfl⟩
abbrev main_v209 : Ref sig .tc := ⟨.hbm, 302, rfl⟩
abbrev main_c_66 : Ref sig .tc := ⟨.hbm, 303, rfl⟩
abbrev main_v210 : Ref sig .tc := ⟨.hbm, 304, rfl⟩
abbrev main_v211 : Ref sig .tc := ⟨.hbm, 305, rfl⟩
abbrev main_c_67 : Ref sig .tc := ⟨.hbm, 306, rfl⟩
abbrev main_v212 : Ref sig .tc := ⟨.hbm, 307, rfl⟩
abbrev main_v213 : Ref sig .tc := ⟨.hbm, 308, rfl⟩
abbrev main_c_68 : Ref sig .tc := ⟨.hbm, 309, rfl⟩
abbrev main_v214 : Ref sig .tc := ⟨.hbm, 310, rfl⟩
abbrev main_v215 : Ref sig .tc := ⟨.hbm, 311, rfl⟩
abbrev main_c_69 : Ref sig .tc := ⟨.hbm, 312, rfl⟩
abbrev main_v216 : Ref sig .tc := ⟨.hbm, 313, rfl⟩
abbrev main_v217 : Ref sig .tc := ⟨.hbm, 314, rfl⟩
abbrev main_c_70 : Ref sig .tc := ⟨.hbm, 315, rfl⟩
abbrev main_v218 : Ref sig .tc := ⟨.hbm, 316, rfl⟩
abbrev main_v219 : Ref sig .tc := ⟨.hbm, 317, rfl⟩
abbrev main_c_71 : Ref sig .tc := ⟨.hbm, 318, rfl⟩
abbrev main_v220 : Ref sig .tc := ⟨.hbm, 319, rfl⟩
abbrev main_v221 : Ref sig .tc := ⟨.hbm, 320, rfl⟩
abbrev main_c_72 : Ref sig .tc := ⟨.hbm, 321, rfl⟩
abbrev main_v222 : Ref sig .tc := ⟨.hbm, 322, rfl⟩
abbrev main_v223 : Ref sig .tc := ⟨.hbm, 323, rfl⟩
abbrev main_c_73 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_v234 : Ref sig .tc := ⟨.hbm, 335, rfl⟩
abbrev main_v235 : Ref sig .tc := ⟨.hbm, 336, rfl⟩

abbrev nD : Nat := 1
abbrev τ : Topo := Topo.v7x

variable {F : FTy → Type} [FloatOps F]

class Facts₀ : Prop where
  slices_S1024x4096x8_S1024x4096x1_0_0_0 : S1024x4096x8.Slices ![0, 0, 0] S1024x4096x1
  shapeCasts_S1024x4096x1_S1024x4096 : S1024x4096x1.ShapeCasts S1024x4096
  slices_S1024x4096x8_S1024x4096x1_0_0_1 : S1024x4096x8.Slices ![0, 0, 1] S1024x4096x1
  bcast_S_S1024x4096 : S_.BroadcastsInDim S1024x4096 (![] : Fin 0 → Fin S1024x4096.rank)
  slices_S1024x4096x8_S1024x4096x1_0_0_2 : S1024x4096x8.Slices ![0, 0, 2] S1024x4096x1
  slices_S1024x4096x8_S1024x4096x1_0_0_3 : S1024x4096x8.Slices ![0, 0, 3] S1024x4096x1
  slices_S1024x4096x8_S1024x4096x1_0_0_4 : S1024x4096x8.Slices ![0, 0, 4] S1024x4096x1
  slices_S1024x4096x8_S1024x4096x1_0_0_5 : S1024x4096x8.Slices ![0, 0, 5] S1024x4096x1
  slices_S1024x4096x8_S1024x4096x1_0_0_6 : S1024x4096x8.Slices ![0, 0, 6] S1024x4096x1
  slices_S1024x4096x8_S1024x4096x1_0_0_7 : S1024x4096x8.Slices ![0, 0, 7] S1024x4096x1
  natLt_1_32 : 1 < 32
  bcast_S1024x4096_S1024x4096x1_0_1 : S1024x4096.BroadcastsInDim S1024x4096x1 (![0, 1] : Fin 2 → Fin S1024x4096x1.rank)
  concatenates_S1024x4096x1_S1024x4096x1_S1024x4096x1_S1024x4096x1_S1024x4096x1_S1024x4096x1_S1024x4096x1_S1024x4096x1_S1024x4096x8_d2 : Shape.Concatenates [S1024x4096x1, S1024x4096x1, S1024x4096x1, S1024x4096x1, S1024x4096x1, S1024x4096x1, S1024x4096x1, S1024x4096x1] S1024x4096x8 2

variable [Facts₀]

class Facts : Prop extends Facts₀ where

variable [Facts]
-- ==== Proof.BitMul.lean ====
/-
  The arithmetic of one product, on 32-bit words.

  An operand is eight words: a sign word, four exponent words (most significant first) and three mantissa
  words. The exponent field is e = (w₁ ≪ 3) | (w₂ ≪ 2) | (w₃ ≪ 1) | w₄ and the mantissa field
  m = (w₅ ≪ 2) | (w₆ ≪ 1) | w₇. The significand is m when e = 0 and m + 8 otherwise, the unbiased exponent
  (e = 0 ? 1 : e) - 7. With M the product of the two significands and E the sum of the two unbiased exponents less 6,
  the value is M · 2^E. The position p of M's leading bit is counted as the number of k ∈ {1,…,7} with M ≥ 2^k.

  Normal path: M is shifted right by max(p - 3, 0) with rounding to nearest, ties to even, then left by
  max(3 - p, 0); a result of 16 is a carry into the exponent, which is E + p + 7 plus the carry; an exponent of 16
  or more saturates to exponent 15 and mantissa 7.
  Subnormal path (E + p + 7 ≤ 0): with t = E + 9, M is shifted right by -t clamped to [0, 30] with the same rounding,
  then left by max(t, 0); a result of 8 or more is the smallest normal number.
  A zero product has exponent and mantissa 0. The sign is the exclusive or of the signs. The eight result words are
  the sign, bits 3…0 of the exponent and bits 2…0 of the mantissa.

  Every function below is that arithmetic spelt over the machine's word operations; the shifts are the vector unit's,
  which at 32 bits answer an amount of 32 or more exactly as the host's do (`shl_host`, `sar_host`).
-/
import Idealize.ShloMosaic.PureOps.Ideal
import Idealize.ShloMosaic.Lib.ValueIdx

noncomputable section

namespace Cert.BitMul

open Idealize.ShloMosaic

/-- A machine word. -/
abbrev W := BitVec 32

/-! ## The two shifts agree between the units, and the two commutations -/

/-- A left shift of a 32-bit word is the same word on the host as on the vector unit: below 32 it is the shift, and
    from 32 on both answer zero. -/
theorem shl_host (x y : W) : IntOp.shli .host x y = IntOp.shli .vector x y := by
  unfold IntOp.shli IntOp.cornerWord; rfl

/-- An arithmetic right shift of a 32-bit word likewise: from 32 on both answer the word of sign bits. -/
theorem sar_host (x y : W) : IntOp.shrsi .host x y = IntOp.shrsi .vector x y := by
  unfold IntOp.shrsi IntOp.cornerWord; rfl

/-- The signed maximum does not depend on the order of its operands. -/
theorem maxsi_comm (x y : W) : IntOp.maxsi x y = IntOp.maxsi y x := by
  unfold IntOp.maxsi
  rcases Int.lt_trichotomy x.toInt y.toInt with h | h | h
  · have h1 : x.slt y = true := by simp only [BitVec.slt, decide_eq_true_eq]; exact h
    have h2 : y.slt x = false := by simp only [BitVec.slt, decide_eq_false_iff_not]; omega
    rw [h1, h2]; simp
  · have e : x = y := BitVec.eq_of_toInt_eq h
    subst e; rfl
  · have h1 : x.slt y = false := by simp only [BitVec.slt, decide_eq_false_iff_not]; omega
    have h2 : y.slt x = true := by simp only [BitVec.slt, decide_eq_true_eq]; exact h
    rw [h1, h2]; simp

/-- Nor does the signed minimum. -/
theorem minsi_comm (x y : W) : IntOp.minsi x y = IntOp.minsi y x := by
  unfold IntOp.minsi
  rcases Int.lt_trichotomy x.toInt y.toInt with h | h | h
  · have h1 : x.slt y = true := by simp only [BitVec.slt, decide_eq_true_eq]; exact h
    have h2 : y.slt x = false := by simp only [BitVec.slt, decide_eq_false_iff_not]; omega
    rw [h1, h2]; simp
  · have e : x = y := BitVec.eq_of_toInt_eq h
    subst e; rfl
  · have h1 : x.slt y = false := by simp only [BitVec.slt, decide_eq_false_iff_not]; omega
    have h2 : y.slt x = true := by simp only [BitVec.slt, decide_eq_true_eq]; exact h
    rw [h1, h2]; simp

/-- Negation is subtraction from zero. -/
theorem neg_eq_zero_sub (x : W) : -x = IntOp.subi 0#32 x := by
  unfold IntOp.subi; simp

/-! ## Decoding -/

/-- A four-bit field from its words, most significant first; the top shift amount is an argument. -/
def field4 (s w1 w2 w3 w4 : W) : W :=
  IntOp.ori (IntOp.ori (IntOp.ori (IntOp.shli .vector w1 s) (IntOp.shli .vector w2 2#32)) (IntOp.shli .vector w3 1#32)) w4

/-- A three-bit field from its words. -/
def field3 (w5 w6 w7 : W) : W :=
  IntOp.ori (IntOp.ori (IntOp.shli .vector w5 2#32) (IntOp.shli .vector w6 1#32)) w7

/-- The significand: the mantissa, with the hidden bit unless the exponent field is zero. -/
def signif (e m : W) : W := Scalar.select (IntOp.cmpi .eq e 0#32) m (IntOp.addi m 8#32)

/-- The unbiased exponent: a zero field counts as one. -/
def unbias (e : W) : W := IntOp.subi (Scalar.select (IntOp.cmpi .eq e 0#32) 1#32 e) 7#32

/-- The product of the significands. -/
def prod (ea ma eb mb : W) : W := IntOp.muli (signif ea ma) (signif eb mb)

/-- The scale: the value is prod · 2^scale. -/
def scale (ea eb : W) : W := IntOp.subi (IntOp.addi (unbias ea) (unbias eb)) 6#32

/-! ## The leading bit -/

/-- One if M ≥ k, else zero. -/
def ge (M k : W) : W := (IntOp.cmpi .sge M k).setWidth 32

/-- The leading bit's position, counted from z with the first comparison (M ≥ 2) given. -/
def msbFrom (z : W) (c2 : BitVec 1) (M : W) : W :=
  IntOp.addi (IntOp.addi (IntOp.addi (IntOp.addi (IntOp.addi (IntOp.addi (IntOp.addi z (c2.setWidth 32)) (ge M 4#32)) (ge M 8#32))
    (ge M 16#32)) (ge M 32#32)) (ge M 64#32)) (ge M 128#32)

/-- The leading bit's position. -/
def msb (M : W) : W := msbFrom 0#32 (IntOp.cmpi .sge M 2#32) M

/-- The candidate biased exponent. -/
def biased (E p : W) : W := IntOp.addi (IntOp.addi E p) 7#32

/-! ## Rounding to nearest, ties to even -/

/-- The quotient of M by 2^sh. -/
def quot (M sh : W) : W := IntOp.shrsi .vector M sh
/-- What the quotient leaves. -/
def rest (M sh : W) : W := IntOp.subi M (IntOp.shli .vector (quot M sh) sh)
/-- Half of 2^sh (zero when sh = 0). -/
def half (sh : W) : W := IntOp.shrsi .vector (IntOp.shli .vector 1#32 sh) 1#32
/-- The quotient plus one when the rest is above the half, or at the half with an odd quotient — and sh > 0. -/
def bump (q : W) (gt eq : BitVec 1) (sh one : W) : W :=
  IntOp.addi q ((IntOp.andi (IntOp.ori gt (IntOp.andi eq (IntOp.cmpi .eq (IntOp.andi q one) 1#32))) (IntOp.cmpi .sgt sh 0#32)).setWidth 32)
/-- M shifted right by sh, rounded to nearest, ties to even. -/
def rne (M sh : W) : W :=
  bump (quot M sh) (IntOp.cmpi .sgt (rest M sh) (half sh)) (IntOp.cmpi .eq (rest M sh) (half sh)) sh 1#32

/-! ## The normal path -/

/-- p - 3. -/
def shiftBy (p : W) : W := IntOp.subi p 3#32
/-- max(p - 3, 0): the right shift. -/
def rshift (p : W) : W := IntOp.maxsi (shiftBy p) 0#32
/-- max(3 - p, 0): the left shift. -/
def lshift (p : W) : W := IntOp.maxsi (IntOp.subi 0#32 (shiftBy p)) 0#32
/-- The four-bit mantissa, in [8, 16]. -/
def mant4 (M p : W) : W := IntOp.shli .vector (rne M (rshift p)) (lshift p)
/-- The exponent with the rounding carry. -/
def expN (ebo m4 : W) : W := IntOp.addi ebo (IntOp.shrsi .vector m4 4#32)
/-- Exponent overflow. -/
def over (en : W) : BitVec 1 := IntOp.cmpi .sge en 16#32
/-- The normal exponent, saturated. -/
def expNorm (ebo m4 : W) : W := Scalar.select (over (expN ebo m4)) 15#32 (expN ebo m4)
/-- The normal mantissa, saturated. -/
def manNorm (ebo m4 : W) : W :=
  Scalar.select (over (expN ebo m4)) 7#32 (IntOp.subi (Scalar.select (IntOp.cmpi .eq m4 16#32) 8#32 m4) 8#32)

/-! ## The subnormal path -/

/-- t = E + 9. -/
def subT (E : W) : W := IntOp.addi E 9#32
/-- -t clamped to [0, 30]. -/
def subShift (E : W) : W := IntOp.minsi 30#32 (IntOp.maxsi 0#32 (IntOp.subi 0#32 (subT E)))
/-- The subnormal mantissa before the promotion test. -/
def mantS (M E : W) : W := IntOp.shli .vector (rne M (subShift E)) (IntOp.maxsi (subT E) 0#32)
/-- Promoted to the smallest normal number. -/
def promoted (ms : W) : BitVec 1 := IntOp.cmpi .sge ms 8#32

/-! ## Selection -/

/-- The result's exponent field. -/
def expOut (M ebo en ms : W) : W :=
  Scalar.select (IntOp.cmpi .eq M 0#32) 0#32 (Scalar.select (IntOp.cmpi .sle ebo 0#32) (Scalar.select (promoted ms) 1#32 0#32) en)
/-- The result's mantissa field. -/
def manOut (M ebo mn ms : W) : W :=
  Scalar.select (IntOp.cmpi .eq M 0#32) 0#32 (Scalar.select (IntOp.cmpi .sle ebo 0#32) (Scalar.select (promoted ms) 0#32 ms) mn)

/-- Bit k of a word, as a word. -/
def bitAt (x k : W) : W := IntOp.andi (IntOp.shrsi .vector x k) 1#32
/-- Bit 0 of a word. -/
def bit0 (x : W) : W := IntOp.andi x 1#32

/-! ## The whole product -/

section Whole
variable (a b : Fin 8 → W)

def eA : W := field4 3#32 (a 1) (a 2) (a 3) (a 4)
def mA : W := field3 (a 5) (a 6) (a 7)
def eB : W := field4 3#32 (b 1) (b 2) (b 3) (b 4)
def mB : W := field3 (b 5) (b 6) (b 7)
def pM : W := prod (eA a) (mA a) (eB b) (mB b)
def pE : W := scale (eA a) (eB b)
def pP : W := msb (pM a b)
def pB : W := biased (pE a b) (pP a b)
def pM4 : W := mant4 (pM a b) (pP a b)
def pMS : W := mantS (pM a b) (pE a b)
/-- The result's exponent field. -/
def outE : W := expOut (pM a b) (pB a b) (expNorm (pB a b) (pM4 a b)) (pMS a b)
/-- The result's mantissa field. -/
def outM : W := manOut (pM a b) (pB a b) (manNorm (pB a b) (pM4 a b)) (pMS a b)

/-- The eight result words. -/
def mulWords : Fin 8 → W
  | 0 => IntOp.xori (a 0) (b 0)
  | 1 => bitAt (outE a b) 3#32
  | 2 => bitAt (outE a b) 2#32
  | 3 => bitAt (outE a b) 1#32
  | 4 => bit0 (outE a b)
  | 5 => bitAt (outM a b) 2#32
  | 6 => bitAt (outM a b) 1#32
  | 7 => bit0 (outM a b)

end Whole

/-! ## The arrays -/

variable {F : FTy → Type} [FloatOps F]

/-- The eight words of entry (r, c) of an operand array, each float read as an integer. -/
def wordsAt (x : (⟨3, ![1024, 4096, 8]⟩ : Shape).Idx → F .f32) (r : Fin 1024) (c : Fin 4096) : Fin 8 → W :=
  fun k => FloatOps.fptosi 32 (x (ValueIdx.ix3 r c k))

/-- THE RESULT ARRAY: entry (r, c, k) is word k of the product of entries (r, c) of the operands, as a float. -/
def G (x y : (⟨3, ![1024, 4096, 8]⟩ : Shape).Idx → F .f32) : (⟨3, ![1024, 4096, 8]⟩ : Shape).Idx → F .f32 :=
  fun i => FloatOps.sitofp .f32 (mulWords (wordsAt x (i 0) (i 1)) (wordsAt y (i 0) (i 1)) (i 2))

end Cert.BitMul

end
-- ==== Proof.KernelLanes.lean ====
/-
  One lane of the kernel's body.

  Every integer operation of the body acts lane by lane, so each intermediate vector of the body, read at a lane j of
  the 128 × 512 plane, is the corresponding function of module BitMul of the values its inputs hold at the same lane.
  A plane is loaded as a [1, 128, 512] slab and its unit axis dropped, so lane j of a loaded plane is the slab's entry
  (0, j); a result plane gets the unit axis back before it is stored, so entry x of a stored slab is lane (x 1, x 2).
-/
import proofs.«100081_j76312978916090_2_alg».proof.Proof.Gen.KernelIdeal.Frame
import proofs.«100081_j76312978916090_2_alg».proof.Proof.BitMul
import Idealize.ShloMosaic.Lib.Pipeline.Value
import Idealize.ShloMosaic.Lib.ValueIdx

noncomputable section

namespace Cert.KernelIdeal.Lanes

open Cert.KernelIdeal Cert.KernelIdeal.Gen Idealize.ShloMosaic Idealize.ShloMosaic.TcCoe Cert.BitMul

variable {F : FTy → Type} [FloatOps F]

/-- A plane of words. -/
abbrev P32 := IVec S128x512 32
/-- A plane of truth values. -/
abbrev P1 := IVec S128x512 1

/-- The slab entry a lane of the plane comes from. -/
abbrev slabOf (j : S128x512.Idx) : S1x128x512.Idx := Fin.cons ⟨0, Nat.one_pos⟩ j
/-- The lane a slab entry goes to. -/
abbrev laneOf (x : S1x128x512.Idx) : S128x512.Idx := fun a => x a.succ

/-! ## Loading: a slab's plane as integers -/

theorem toInt_slab (v : Vec F S1x128x512 .f32) (j : S128x512.Idx) :
    fptosi 32 (shapeCast S128x512 v shapeCasts_S1x128x512_S128x512) j = FloatOps.fptosi 32 (v (slabOf j)) :=
  congrArg (FloatOps.fptosi 32) (shapeCast_dropUnit_apply ![128, 512] v shapeCasts_S1x128x512_S128x512 j)

variable (j : S128x512.Idx)

theorem pay5_lane (v : Vec F S1x128x512 .f32) : k0_pay5 v j = FloatOps.fptosi 32 (v (slabOf j)) := toInt_slab v j
theorem pay6_lane (v : Vec F S1x128x512 .f32) : k0_pay6 v j = FloatOps.fptosi 32 (v (slabOf j)) := toInt_slab v j
theorem pay7_lane (v : Vec F S1x128x512 .f32) : k0_pay7 v j = FloatOps.fptosi 32 (v (slabOf j)) := toInt_slab v j
theorem pay8_lane (v : Vec F S1x128x512 .f32) : k0_pay8 v j = FloatOps.fptosi 32 (v (slabOf j)) := toInt_slab v j
theorem pay9_lane (v : Vec F S1x128x512 .f32) : k0_pay9 v j = FloatOps.fptosi 32 (v (slabOf j)) := toInt_slab v j
theorem pay10_lane (v : Vec F S1x128x512 .f32) : k0_pay10 v j = FloatOps.fptosi 32 (v (slabOf j)) := toInt_slab v j
theorem pay11_lane (v : Vec F S1x128x512 .f32) : k0_pay11 v j = FloatOps.fptosi 32 (v (slabOf j)) := toInt_slab v j
theorem pay12_lane (v : Vec F S1x128x512 .f32) : k0_pay12 v j = FloatOps.fptosi 32 (v (slabOf j)) := toInt_slab v j
theorem pay13_lane (v : Vec F S1x128x512 .f32) : k0_pay13 v j = FloatOps.fptosi 32 (v (slabOf j)) := toInt_slab v j
theorem pay14_lane (v : Vec F S1x128x512 .f32) : k0_pay14 v j = FloatOps.fptosi 32 (v (slabOf j)) := toInt_slab v j
theorem pay15_lane (v : Vec F S1x128x512 .f32) : k0_pay15 v j = FloatOps.fptosi 32 (v (slabOf j)) := toInt_slab v j
theorem pay16_lane (v : Vec F S1x128x512 .f32) : k0_pay16 v j = FloatOps.fptosi 32 (v (slabOf j)) := toInt_slab v j
theorem pay17_lane (v : Vec F S1x128x512 .f32) : k0_pay17 v j = FloatOps.fptosi 32 (v (slabOf j)) := toInt_slab v j
theorem pay18_lane (v : Vec F S1x128x512 .f32) : k0_pay18 v j = FloatOps.fptosi 32 (v (slabOf j)) := toInt_slab v j
theorem pay19_lane (v : Vec F S1x128x512 .f32) : k0_pay19 v j = FloatOps.fptosi 32 (v (slabOf j)) := toInt_slab v j
theorem pay20_lane (v : Vec F S1x128x512 .f32) : k0_pay20 v j = FloatOps.fptosi 32 (v (slabOf j)) := toInt_slab v j

/-! ## Decoding, the product and the scale -/

theorem pay21_lane (v5 v8 v11 v14 : P32) : k0_pay21 v5 v8 v11 v14 j = field4 3#32 (v5 j) (v8 j) (v11 j) (v14 j) := rfl
theorem pay22_lane (v17 v20 v23 : P32) : k0_pay22 v17 v20 v23 j = field3 (v17 j) (v20 j) (v23 j) := rfl
theorem pay23_lane : k0_pay23 j = 3#32 := rfl
theorem pay24_lane (v29 v32 v35 v38 v63 : P32) :
    k0_pay24 v29 v32 v35 v38 v63 j = field4 (v63 j) (v29 j) (v32 j) (v35 j) (v38 j) := rfl
theorem pay25_lane (v29 v32 v35 v38 v41 v44 v47 v56 v62 v63 : P32) :
    k0_pay25 v29 v32 v35 v38 v41 v44 v47 v56 v62 v63 j
      = prod (v56 j) (v62 j) (field4 (v63 j) (v29 j) (v32 j) (v35 j) (v38 j)) (field3 (v41 j) (v44 j) (v47 j)) := rfl
theorem pay26_lane (v29 v32 v35 v38 v56 v63 : P32) :
    k0_pay26 v29 v32 v35 v38 v56 v63 j = scale (v56 j) (field4 (v63 j) (v29 j) (v32 j) (v35 j) (v38 j)) := rfl
theorem pay27_lane : k0_pay27 j = 0#32 := rfl
theorem pay28_lane (v29 v32 v35 v38 v41 v44 v47 v56 v62 v63 : P32) :
    k0_pay28 v29 v32 v35 v38 v41 v44 v47 v56 v62 v63 j
      = IntOp.cmpi .sge (prod (v56 j) (v62 j) (field4 (v63 j) (v29 j) (v32 j) (v35 j) (v38 j)) (field3 (v41 j) (v44 j) (v47 j))) 2#32 := rfl

/-! ## The leading bit, the biased exponent and the two shift amounts -/

theorem pay29_lane (v100 v104 : P32) (v106 : P1) : k0_pay29 v100 v104 v106 j = msbFrom (v104 j) (v106 j) (v100 j) := rfl
theorem pay30_lane (v100 v103 v104 : P32) (v106 : P1) :
    k0_pay30 v100 v103 v104 v106 j = biased (v103 j) (msbFrom (v104 j) (v106 j) (v100 j)) := rfl
theorem pay31_lane (v100 v104 : P32) (v106 : P1) : k0_pay31 v100 v104 v106 j = shiftBy (msbFrom (v104 j) (v106 j) (v100 j)) := rfl
theorem pay32_lane (v100 v104 : P32) (v106 : P1) : k0_pay32 v100 v104 v106 j = rshift (msbFrom (v104 j) (v106 j) (v100 j)) := rfl
theorem pay33_lane (v100 v104 : P32) (v106 : P1) : k0_pay33 v100 v104 v106 j = lshift (msbFrom (v104 j) (v106 j) (v100 j)) := rfl

/-! ## The normal path -/

theorem pay34_lane (v100 v104 : P32) (v106 : P1) :
    k0_pay34 v100 v104 v106 j = quot (v100 j) (rshift (msbFrom (v104 j) (v106 j) (v100 j))) := rfl
theorem pay35_lane (v100 v104 : P32) (v106 : P1) :
    k0_pay35 v100 v104 v106 j = rest (v100 j) (rshift (msbFrom (v104 j) (v106 j) (v100 j))) := rfl
theorem pay36_lane (v100 v104 : P32) (v106 : P1) :
    k0_pay36 v100 v104 v106 j = half (rshift (msbFrom (v104 j) (v106 j) (v100 j))) := rfl
theorem pay37_lane (v100 v104 : P32) (v106 : P1) :
    k0_pay37 v100 v104 v106 j = IntOp.cmpi .sgt (rest (v100 j) (rshift (msbFrom (v104 j) (v106 j) (v100 j)))) (half (rshift (msbFrom (v104 j) (v106 j) (v100 j)))) := rfl
theorem pay38_lane (v100 v104 : P32) (v106 : P1) :
    k0_pay38 v100 v104 v106 j = IntOp.cmpi .eq (rest (v100 j) (rshift (msbFrom (v104 j) (v106 j) (v100 j)))) (half (rshift (msbFrom (v104 j) (v106 j) (v100 j)))) := rfl
theorem pay39_lane (v139 v143 v144 : P32) (v151 v152 : P1) (c : BitVec 32) :
    k0_pay39 v139 v143 v144 v151 v152 c j = IntOp.shli .vector (bump (v144 j) (v151 j) (v152 j) (v139 j) c) (v143 j) := rfl
theorem pay40_lane (v135 v139 v143 v144 : P32) (v151 v152 : P1) (c : BitVec 32) :
    k0_pay40 v135 v139 v143 v144 v151 v152 c j
      = expN (v135 j) (IntOp.shli .vector (bump (v144 j) (v151 j) (v152 j) (v139 j) c) (v143 j)) := rfl
theorem pay41_lane (v135 v139 v143 v144 : P32) (v151 v152 : P1) (c : BitVec 32) :
    k0_pay41 v135 v139 v143 v144 v151 v152 c j
      = over (expN (v135 j) (IntOp.shli .vector (bump (v144 j) (v151 j) (v152 j) (v139 j) c) (v143 j))) := rfl
theorem pay42_lane (v135 v139 v143 v144 : P32) (v151 v152 : P1) (c : BitVec 32) :
    k0_pay42 v135 v139 v143 v144 v151 v152 c j
      = expNorm (v135 j) (IntOp.shli .vector (bump (v144 j) (v151 j) (v152 j) (v139 j) c) (v143 j)) := rfl
theorem pay43_lane (v135 v139 v143 v144 : P32) (v151 v152 : P1) (c : BitVec 32) :
    k0_pay43 v135 v139 v143 v144 v151 v152 c j
      = manNorm (v135 j) (IntOp.shli .vector (bump (v144 j) (v151 j) (v152 j) (v139 j) c) (v143 j)) := rfl

/-! ## The subnormal path -/

theorem pay44_lane (v103 : P32) : k0_pay44 v103 j = subT (v103 j) := rfl
theorem pay45_lane (v103 : P32) : k0_pay45 v103 j = subShift (v103 j) := rfl
theorem pay46_lane (v100 v103 : P32) : k0_pay46 v100 v103 j = quot (v100 j) (subShift (v103 j)) := rfl
theorem pay47_lane (v100 v103 : P32) : k0_pay47 v100 v103 j = rest (v100 j) (subShift (v103 j)) := rfl
theorem pay48_lane (v103 : P32) : k0_pay48 v103 j = half (subShift (v103 j)) := rfl
theorem pay49_lane (v100 v103 : P32) :
    k0_pay49 v100 v103 j = IntOp.cmpi .sgt (rest (v100 j) (subShift (v103 j))) (half (subShift (v103 j))) := rfl
theorem pay50_lane (v100 v103 : P32) :
    k0_pay50 v100 v103 j = IntOp.cmpi .eq (rest (v100 j) (subShift (v103 j))) (half (subShift (v103 j))) := rfl
theorem pay51_lane (v181 v187 v188 : P32) (v195 v196 : P1) (c : BitVec 32) :
    k0_pay51 v181 v187 v188 v195 v196 c j
      = IntOp.shli .vector (bump (v188 j) (v195 j) (v196 j) (v187 j) c) (IntOp.maxsi (v181 j) 0#32) := rfl

/-! ## Selection and the result's bits -/

theorem pay52_lane (v135 : P32) : k0_pay52 v135 j = IntOp.cmpi .sle (v135 j) 0#32 := rfl
theorem pay53_lane (v100 : P32) : k0_pay53 v100 j = IntOp.cmpi .eq (v100 j) 0#32 := rfl
theorem pay54_lane (v100 v135 v177 v181 v187 v188 : P32) (v195 v196 : P1) (c : BitVec 32) :
    k0_pay54 v100 v135 v177 v181 v187 v188 v195 v196 c j
      = expOut (v100 j) (v135 j) (v177 j) (IntOp.shli .vector (bump (v188 j) (v195 j) (v196 j) (v187 j) c) (IntOp.maxsi (v181 j) 0#32)) := rfl
theorem pay55_lane (v100 v135 v179 v181 v187 v188 : P32) (v195 v196 : P1) (c : BitVec 32) :
    k0_pay55 v100 v135 v179 v181 v187 v188 v195 v196 c j
      = manOut (v100 j) (v135 j) (v179 j) (IntOp.shli .vector (bump (v188 j) (v195 j) (v196 j) (v187 j) c) (IntOp.maxsi (v181 j) 0#32)) := rfl
theorem pay56_lane (v2 v26 : P32) : k0_pay56 v2 v26 j = IntOp.xori (v2 j) (v26 j) := rfl
theorem pay57_lane (v100 v135 v177 v181 v187 v188 : P32) (v195 v196 : P1) (c : BitVec 32) :
    k0_pay57 v100 v135 v177 v181 v187 v188 v195 v196 c j
      = bitAt (expOut (v100 j) (v135 j) (v177 j) (IntOp.shli .vector (bump (v188 j) (v195 j) (v196 j) (v187 j) c) (IntOp.maxsi (v181 j) 0#32))) 3#32 := rfl
theorem pay58_lane (v100 v135 v177 v181 v187 v188 : P32) (v195 v196 : P1) (c : BitVec 32) :
    k0_pay58 v100 v135 v177 v181 v187 v188 v195 v196 c j
      = bitAt (expOut (v100 j) (v135 j) (v177 j) (IntOp.shli .vector (bump (v188 j) (v195 j) (v196 j) (v187 j) c) (IntOp.maxsi (v181 j) 0#32))) 2#32 := rfl
theorem pay59_lane : k0_pay59 j = 1#32 := rfl
theorem pay60_lane (v229 : P32) : k0_pay60 v229 j = bitAt (v229 j) 2#32 := rfl
theorem pay61_lane (v229 : P32) : k0_pay61 v229 j = bitAt (v229 j) 1#32 := rfl
theorem pay62_lane (v229 : P32) : k0_pay62 v229 j = bit0 (v229 j) := rfl
theorem pay67_lane (v227 : P32) : k0_pay67 (F := F) v227 j = FloatOps.sitofp .f32 (bit0 (v227 j)) := rfl

/-! ## Storing: a result plane as a slab of floats -/

variable (x : S1x128x512.Idx)

theorem toSlab (v : FVec F S128x512 .f32) :
    shapeCast S1x128x512 v shapeCasts_S128x512_S1x128x512 x = v (laneOf x) :=
  shapeCast_addUnit_apply ![128, 512] v shapeCasts_S128x512_S1x128x512 x

theorem pay1_slab (v271 : FVec F S128x512 .f32) : k0_pay1 v271 x = v271 (laneOf x) := toSlab x v271
theorem pay2_slab (v : P32) : k0_pay2 (F := F) v x = FloatOps.sitofp .f32 (v (laneOf x)) := toSlab x (sitofp .f32 v)
theorem pay3_slab (v : P32) : k0_pay3 (F := F) v x = FloatOps.sitofp .f32 (v (laneOf x)) := toSlab x (sitofp .f32 v)
theorem pay4_slab (v : P32) : k0_pay4 (F := F) v x = FloatOps.sitofp .f32 (v (laneOf x)) := toSlab x (sitofp .f32 v)
theorem pay63_slab (v : P32) : k0_pay63 (F := F) v x = FloatOps.sitofp .f32 (v (laneOf x)) := toSlab x (sitofp .f32 v)
theorem pay64_slab (v : P32) : k0_pay64 (F := F) v x = FloatOps.sitofp .f32 (v (laneOf x)) := toSlab x (sitofp .f32 v)
theorem pay65_slab (v : P32) : k0_pay65 (F := F) v x = FloatOps.sitofp .f32 (v (laneOf x)) := toSlab x (sitofp .f32 v)
theorem pay66_slab (v227 v239 : P32) :
    k0_pay66 (F := F) v227 v239 x = FloatOps.sitofp .f32 (bitAt (v227 (laneOf x)) (v239 (laneOf x))) :=
  toSlab x (sitofp .f32 (andi (shrsi v227 v239) (broadcast S128x512 1#32)))

end Cert.KernelIdeal.Lanes

end
-- ==== Proof.KernelBlock.lean ====
/-
  What the body leaves in the output block.

  The input blocks are eight planes each: plane k of the first operand's block holds word k of every entry of the tile,
  at lane (p, q). The body loads the sixteen planes, computes lane by lane (module KernelLanes) and stores eight result
  planes, plane k through the unit-stride rectangle at offset (k, 0, 0). So entry (k, p, q) of the output block is word k
  of the product of the two operands' words at lane (p, q), as a float: `blockOut`. The eight stores tile the block,
  and each store's payload is the restriction of that one function to its plane.
-/
import proofs.«100081_j76312978916090_2_alg».proof.Proof.KernelLanes

set_option maxRecDepth 16384

noncomputable section

namespace Cert.KernelIdeal.Block

open Cert.KernelIdeal Cert.KernelIdeal.Gen Idealize.ShloMosaic Idealize.ShloMosaic.TcCoe Idealize.ShloMosaic.ValueIdx
open Cert.BitMul Cert.KernelIdeal.Lanes

variable {F : FTy → Type} [FloatOps F]

/-- The eight words at lane (p, q) of a block of eight planes, each float read as an integer. -/
def blockWords (x : Vec F S8x128x512 .f32) (p : Fin 128) (q : Fin 512) : Fin 8 → W :=
  fun k => FloatOps.fptosi 32 (x (ix3 k p q))

/-- THE OUTPUT BLOCK: entry (k, p, q) is word k of the product of the operands' words at lane (p, q), as a float. -/
def blockOut (x0 x1 : Vec F S8x128x512 .f32) : Vec F S8x128x512 .f32 :=
  fun y => FloatOps.sitofp .f32 (mulWords (blockWords x0 (y 1) (y 2)) (blockWords x1 (y 1) (y 2)) (y 0))

/-! ## A plane of a block, loaded and stored -/

/-- Lane j of plane k, as loaded: the block's entry (k, j). -/
theorem ld_plane (x : Vec F S8x128x512 .f32) (k : Fin 8)
    (inb : ∀ a, (![k.val, 0, 0] : Fin 3 → Nat) a + S1x128x512.size a ≤ S8x128x512.size a) (j : S128x512.Idx) :
    View.ld x (Rect.unit (s := S8x128x512) ![k.val, 0, 0] S1x128x512.size inb) (slabOf j) = x (ix3 k (j 0) (j 1)) := by
  show x _ = x _
  refine congrArg x (funext fun a => Fin.ext ?_)
  match a with
  | ⟨0, _⟩ => show k.val + 1 * 0 = k.val; omega
  | ⟨1, _⟩ => show 0 + 1 * (j 0).val = (j 0).val; omega
  | ⟨2, _⟩ => show 0 + 1 * (j 1).val = (j 1).val; omega

variable (x : Vec F S8x128x512 .f32) (j : S128x512.Idx)
theorem ld0 : View.ld x r0_0 (slabOf j) = x (ix3 (0 : Fin 8) (j 0) (j 1)) := ld_plane x 0 _ j
theorem ld1 : View.ld x r0_1 (slabOf j) = x (ix3 (1 : Fin 8) (j 0) (j 1)) := ld_plane x 1 _ j
theorem ld2 : View.ld x r0_2 (slabOf j) = x (ix3 (2 : Fin 8) (j 0) (j 1)) := ld_plane x 2 _ j
theorem ld3 : View.ld x r0_3 (slabOf j) = x (ix3 (3 : Fin 8) (j 0) (j 1)) := ld_plane x 3 _ j
theorem ld4 : View.ld x r0_4 (slabOf j) = x (ix3 (4 : Fin 8) (j 0) (j 1)) := ld_plane x 4 _ j
theorem ld5 : View.ld x r0_5 (slabOf j) = x (ix3 (5 : Fin 8) (j 0) (j 1)) := ld_plane x 5 _ j
theorem ld6 : View.ld x r0_6 (slabOf j) = x (ix3 (6 : Fin 8) (j 0) (j 1)) := ld_plane x 6 _ j
theorem ld7 : View.ld x r0_7 (slabOf j) = x (ix3 (7 : Fin 8) (j 0) (j 1)) := ld_plane x 7 _ j

/-- Entry z of the slab stored as plane k is the block's entry (k, z 1, z 2). -/
theorem emb_plane (k : Fin 8) (inb : ∀ a, (![k.val, 0, 0] : Fin 3 → Nat) a + S1x128x512.size a ≤ S8x128x512.size a)
    (z : S1x128x512.Idx) :
    (Rect.unit (s := S8x128x512) ![k.val, 0, 0] S1x128x512.size inb).emb z = ix3 k (z 1) (z 2) := by
  funext a; apply Fin.ext
  match a with
  | ⟨0, _⟩ => show k.val + 1 * (z 0).val = k.val; have h : (z 0).val < 1 := (z 0).isLt; omega
  | ⟨1, _⟩ => show 0 + 1 * (z 1).val = (z 1).val; omega
  | ⟨2, _⟩ => show 0 + 1 * (z 2).val = (z 2).val; omega

/-! ## Eight plane stores that agree with one block function leave that function -/

theorem canon_planes (G : Vec F S8x128x512 .f32) (w7 w6 w5 w4 w3 w2 w1 w0 : Vec F S1x128x512 .f32)
    (h7 : ∀ z, w7 z = G (r0_7.emb z)) (h6 : ∀ z, w6 z = G (r0_6.emb z)) (h5 : ∀ z, w5 z = G (r0_5.emb z))
    (h4 : ∀ z, w4 z = G (r0_4.emb z)) (h3 : ∀ z, w3 z = G (r0_3.emb z)) (h2 : ∀ z, w2 z = G (r0_2.emb z))
    (h1 : ∀ z, w1 z = G (r0_1.emb z)) (h0 : ∀ z, w0 z = G (r0_0.emb z)) :
    View.canon ([⟨r0_7, w7⟩, ⟨r0_6, w6⟩, ⟨r0_5, w5⟩, ⟨r0_4, w4⟩, ⟨r0_3, w3⟩, ⟨r0_2, w2⟩, ⟨r0_1, w1⟩, ⟨r0_0, w0⟩] :
      List (View.Piece (Elt F) S8x128x512 .f32)) = G := by
  funext y
  refine View.canon_apply_of_pieces G _ ?_ y (cover0_2 w7 w6 w5 w4 w3 w2 w1 w0 y)
  intro p hp
  simp only [List.mem_cons, List.mem_nil_iff, or_false] at hp
  rcases hp with rfl | rfl | rfl | rfl | rfl | rfl | rfl | rfl
  exacts [h7, h6, h5, h4, h3, h2, h1, h0]

/-! ## The body's stores are the planes of `blockOut` -/

set_option hygiene false in
/-- One store: its rectangle's entry z is the block's entry (k, z 1, z 2); the payload read there, lane by lane, is word k of the
    product of the words loaded at that lane. -/
local macro "store_plane " r:term " at " k:term : tactic => `(tactic| (
  rw [show Rect.emb $r z = ix3 ($k : Fin 8) (z 1) (z 2) from emb_plane $k _ z]
  simp only [pay1_slab, pay2_slab, pay3_slab, pay4_slab, pay63_slab, pay64_slab, pay65_slab, pay66_slab, pay67_lane,
    pay5_lane, pay6_lane, pay7_lane, pay8_lane, pay9_lane, pay10_lane, pay11_lane, pay12_lane, pay13_lane, pay14_lane,
    pay15_lane, pay16_lane, pay17_lane, pay18_lane, pay19_lane, pay20_lane, pay21_lane, pay22_lane, pay23_lane, pay24_lane,
    pay25_lane, pay26_lane, pay27_lane, pay28_lane, pay29_lane, pay30_lane, pay31_lane, pay32_lane, pay33_lane, pay34_lane,
    pay35_lane, pay36_lane, pay37_lane, pay38_lane, pay39_lane, pay40_lane, pay41_lane, pay42_lane, pay43_lane, pay44_lane,
    pay45_lane, pay46_lane, pay47_lane, pay48_lane, pay49_lane, pay50_lane, pay51_lane, pay52_lane, pay53_lane, pay54_lane,
    pay55_lane, pay56_lane, pay57_lane, pay58_lane, pay59_lane, pay60_lane, pay61_lane, pay62_lane]
  simp only [ld0 x0 (laneOf z), ld1 x0 (laneOf z), ld2 x0 (laneOf z), ld3 x0 (laneOf z), ld4 x0 (laneOf z), ld5 x0 (laneOf z),
    ld6 x0 (laneOf z), ld7 x0 (laneOf z), ld0 x1 (laneOf z), ld1 x1 (laneOf z), ld2 x1 (laneOf z), ld3 x1 (laneOf z),
    ld4 x1 (laneOf z), ld5 x1 (laneOf z), ld6 x1 (laneOf z), ld7 x1 (laneOf z)]
  rfl))

/-- What the body leaves in the output block's buffer is `blockOut` of the two input blocks. -/
theorem out_eq (x0 x1 : Vec F S8x128x512 .f32) : out0_2 x0 x1 = blockOut x0 x1 := by
  unfold out0_2
  refine canon_planes (blockOut x0 x1) _ _ _ _ _ _ _ _ ?_ ?_ ?_ ?_ ?_ ?_ ?_ ?_ <;> intro z
  · store_plane r0_7 at 7
  · store_plane r0_6 at 6
  · store_plane r0_5 at 5
  · store_plane r0_4 at 4
  · store_plane r0_3 at 3
  · store_plane r0_2 at 2
  · store_plane r0_1 at 1
  · store_plane r0_0 at 0

end Cert.KernelIdeal.Block

end
-- ==== Proof.KernelArray.lean ====
/-
  From blocks to the array, and the kernel's run.

  Before the region the two operands are transposed so that the bit axis leads: the arrays the region finds hold, at
  (k, r, q), word k of entry (r, q) of the operand. The grid is 8 × 8; point (i, j) stages block (0, i, j) of each array, the
  tile of rows 128 i … 128 i + 127 and columns 512 j … 512 j + 511 with all eight planes, and writes back the same block
  of the result. What it writes is `blockOut` of the two input blocks (module KernelBlock), which is the block of ONE
  whole-array function, `planes`: at (k, r, q), word k of the product of the operands' entries (r, q). The 64 blocks cover
  the array. After the region the result is transposed back, so that entry (r, q, k) of what @main returns is
  `Cert.BitMul.G` of the two arguments.
-/
import proofs.«100081_j76312978916090_2_alg».proof.Proof.KernelBlock
import Idealize.ShloMosaic.Lib.StableHlo.Run

set_option maxRecDepth 16384

noncomputable section

namespace Cert.KernelIdeal.Arr

open Cert.KernelIdeal Cert.KernelIdeal.Gen Idealize.ShloMosaic Idealize.ShloMosaic.TcCoe Idealize.SL.Sem Idealize.ShloMosaic.ValueIdx
open Idealize.ShloMosaic.Pipeline (Dat)
open Cert.BitMul Cert.KernelIdeal.Block

variable {F : FTy → Type} [FloatOps F]
variable (m : (ℓ : Loc nD τ sig) → Buf (Elt F) ℓ) (ρ : Dev nD → PrngReg)

/-! ## The arrays the region finds -/

/-- The first operand as the region finds it: the argument with its bit axis moved to the front. -/
theorem V_v0 (c : Dev nD) : (V m c main_v0 : S8x1024x4096.Idx → Elt F .f32)
    = transpose S8x1024x4096 [2, 0, 1] (m ((c : Thread nD τ).loc main_arg0)) transposes_S1024x4096x8_S8x1024x4096_2_0_1 := by
  show StableHlo.after hostOps0 (fun b => m (c, b)) (Proc.devRef .tc main_v0) = _
  after_results

/-- The second operand likewise. -/
theorem V_v1 (c : Dev nD) : (V m c main_v1 : S8x1024x4096.Idx → Elt F .f32)
    = transpose S8x1024x4096 [2, 0, 1] (m ((c : Thread nD τ).loc main_arg1)) transposes_S1024x4096x8_S8x1024x4096_2_0_1 := by
  show StableHlo.after hostOps0 (fun b => m (c, b)) (Proc.devRef .tc main_v1) = _
  after_results

/-- Entry (k, r, q) of the transposed operand is entry (r, q, k) of the argument. -/
theorem transposed_apply (a : S1024x4096x8.Idx → Elt F .f32) (k : Fin 8) (r : Fin 1024) (q : Fin 4096) :
    transpose S8x1024x4096 [2, 0, 1] a transposes_S1024x4096x8_S8x1024x4096_2_0_1 (ix3 k r q) = a (ix3 r q k) :=
  transpose_apply [2, 0, 1] a transposes_S1024x4096x8_S8x1024x4096_2_0_1 (ix3 k r q) (ix3 r q k)
    (fun b => match b with | ⟨0, _⟩ => rfl | ⟨1, _⟩ => rfl | ⟨2, _⟩ => rfl)

/-! ## The result before it is transposed back -/

/-- At (k, r, q): word k of the product of the operands' entries (r, q), as a float. -/
def planes (a b : S1024x4096x8.Idx → Elt F .f32) : S8x1024x4096.Idx → Elt F .f32 :=
  fun i => G a b (ix3 (i 1) (i 2) (i 0))

/-! ## The index maps, decided over the 64 points -/

/-- Every window's block index is (0, i, j) at point (i, j): zero on the bit axis, and the inputs' equal to the output's. -/
theorem idx_facts : ∀ t : Fin cfg0.N,
    win0_0.index t (0 : Fin 3) = 0 ∧ win0_1.index t (0 : Fin 3) = 0 ∧ win0_2.index t (0 : Fin 3) = 0
    ∧ win0_0.index t (1 : Fin 3) = win0_2.index t (1 : Fin 3) ∧ win0_0.index t (2 : Fin 3) = win0_2.index t (2 : Fin 3)
    ∧ win0_1.index t (1 : Fin 3) = win0_2.index t (1 : Fin 3) ∧ win0_1.index t (2 : Fin 3) = win0_2.index t (2 : Fin 3)
    ∧ win0_2.index t (1 : Fin 3) ≤ 7 ∧ win0_2.index t (2 : Fin 3) ≤ 7 :=
  (by decide +kernel : ∀ t : Fin grid0.N, _)

/-- Every block (0, i, j) is some point's. -/
theorem idx_onto : ∀ (q1 : Fin 8) (q2 : Fin 8), ∃ t : Fin cfg0.N, win0_2.index t = ![0, q1.val, q2.val] :=
  (by decide +kernel : ∀ (q1 : Fin 8) (q2 : Fin 8), ∃ t : Fin grid0.N, win0_2.index t = ![0, q1.val, q2.val])

/-! ## What a point writes back -/

/-- WHAT POINT t WRITES BACK is block t of `planes` of the two arguments. -/
theorem flushed_eq (c : Dev nD) (t : Fin cfg0.N) :
    (dats m 0 c).flushed 2 t = ((cfg0.win 2).blk t).view.read (Elt F)
      (planes (m ((c : Thread nD τ).loc main_arg0)) (m ((c : Thread nD τ).loc main_arg1))) := by
  show (cfg0.win 2).cut (grid0.coords t) ((dats m 0 c).after 2 t) = _
  rw [after0_2, out_eq]
  obtain ⟨e0, e1, e2, e3, e4, e5, e6, e7, e8⟩ := idx_facts t
  funext y
  -- the output block's entry y sits at E y in the array
  let E := ((cfg0.win 2).blk t).view.emb
  have hy0 : (E y) 0 = y 0 := by
    apply Fin.ext
    show win0_2.index t (0 : Fin 3) * 8 + 1 * (y 0).val = (y 0).val
    omega
  -- plane k of either input block, at the lane of y, is the operand's word k at the array's row and column of y
  have hw0 : blockWords (iblk m c 0 t) (y 1) (y 2) = wordsAt (m ((c : Thread nD τ).loc main_arg0)) ((E y) 1) ((E y) 2) := by
    funext k
    show FloatOps.fptosi 32 (V m c main_v0 (((cfg0.win 0).blk t).view.emb (ix3 k (y 1) (y 2)))) = FloatOps.fptosi 32 _
    have h : ((cfg0.win 0).blk t).view.emb (ix3 k (y 1) (y 2)) = ix3 k ((E y) 1) ((E y) 2) := by
      funext a; apply Fin.ext
      match a with
      | ⟨0, _⟩ => show win0_0.index t (0 : Fin 3) * 8 + 1 * k.val = k.val; omega
      | ⟨1, _⟩ => show win0_0.index t (1 : Fin 3) * 128 + 1 * (y 1).val = win0_2.index t (1 : Fin 3) * 128 + 1 * (y 1).val; omega
      | ⟨2, _⟩ => show win0_0.index t (2 : Fin 3) * 512 + 1 * (y 2).val = win0_2.index t (2 : Fin 3) * 512 + 1 * (y 2).val; omega
    rw [h, V_v0]
    exact congrArg (FloatOps.fptosi 32) (transposed_apply (m ((c : Thread nD τ).loc main_arg0)) k ((E y) 1) ((E y) 2))
  have hw1 : blockWords (iblk m c 1 t) (y 1) (y 2) = wordsAt (m ((c : Thread nD τ).loc main_arg1)) ((E y) 1) ((E y) 2) := by
    funext k
    show FloatOps.fptosi 32 (V m c main_v1 (((cfg0.win 1).blk t).view.emb (ix3 k (y 1) (y 2)))) = FloatOps.fptosi 32 _
    have h : ((cfg0.win 1).blk t).view.emb (ix3 k (y 1) (y 2)) = ix3 k ((E y) 1) ((E y) 2) := by
      funext a; apply Fin.ext
      match a with
      | ⟨0, _⟩ => show win0_1.index t (0 : Fin 3) * 8 + 1 * k.val = k.val; omega
      | ⟨1, _⟩ => show win0_1.index t (1 : Fin 3) * 128 + 1 * (y 1).val = win0_2.index t (1 : Fin 3) * 128 + 1 * (y 1).val; omega
      | ⟨2, _⟩ => show win0_1.index t (2 : Fin 3) * 512 + 1 * (y 2).val = win0_2.index t (2 : Fin 3) * 512 + 1 * (y 2).val; omega
    rw [h, V_v1]
    exact congrArg (FloatOps.fptosi 32) (transposed_apply (m ((c : Thread nD τ).loc main_arg1)) k ((E y) 1) ((E y) 2))
  show FloatOps.sitofp .f32 (mulWords (blockWords (iblk m c 0 t) (y 1) (y 2)) (blockWords (iblk m c 1 t) (y 1) (y 2)) (y 0))
    = FloatOps.sitofp .f32 (mulWords (wordsAt (m ((c : Thread nD τ).loc main_arg0)) ((E y) 1) ((E y) 2))
        (wordsAt (m ((c : Thread nD τ).loc main_arg1)) ((E y) 1) ((E y) 2)) ((E y) 0))
  rw [hw0, hw1, hy0]

/-! ## The blocks cover the array -/

/-- An index of the array is in point t's block iff each coordinate is in the block's range on its axis. -/
theorem mem_blk (t : Fin cfg0.N) (i : S8x1024x4096.Idx) :
    i ∈ ((cfg0.win 2).blk t).view.set ↔ ∀ a : Fin 3, win0_2.index t a * S8x128x512.size a ≤ (i a).val
      ∧ (i a).val < win0_2.index t a * S8x128x512.size a + S8x128x512.size a := by
  show i ∈ ((View.whole main_v2).slice (win0_2.rect t)).set ↔ _
  rw [View.set_slice_whole, Rect.mem_set_unit]
  exact Iff.rfl

/-- Every index is in the block of the point of its row tile and column tile. -/
theorem cover (i : S8x1024x4096.Idx) :
    ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 4096 := (i 2).isLt
  obtain ⟨t, ht⟩ := idx_onto ⟨(i 1).val / 128, by omega⟩ ⟨(i 2).val / 512, by omega⟩
  have q0 : win0_2.index t (0 : Fin 3) = 0 := congrFun ht 0
  have q1 : win0_2.index t (1 : Fin 3) = (i 1).val / 128 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 128 ≤ (i 1).val ∧ (i 1).val < win0_2.index t (1 : Fin 3) * 128 + 128; omega
  | ⟨2, _⟩ => show win0_2.index t (2 : Fin 3) * 512 ≤ (i 2).val ∧ (i 2).val < win0_2.index t (2 : Fin 3) * 512 + 512; omega

/-- THE ARRAY after the region: `planes` of the two arguments. -/
theorem final (c : Dev nD) : (dats m 0 c).arrAt 2 cfg0.N
    = planes (m ((c : Thread nD τ).loc main_arg0)) (m ((c : Thread nD τ).loc main_arg1)) :=
  (dats m 0 c).arrAt_eq_of_cover 2 (planes (m ((c : Thread nD τ).loc main_arg0)) (m ((c : Thread nD τ).loc main_arg1)))
    (fun t _ => flushed_eq m c t) cover

/-! ## The transpose back, and the run -/

/-- What @main returns: the result array transposed back is `G` of the two arguments. -/
theorem tail_eq (c : Dev nD) : Pipeline.afterTail₀ cfgs (dats m) 0 (V0 m) [hostOps1] c main_v3
    = G (m ((c : Thread nD τ).loc main_arg0)) (m ((c : Thread nD τ).loc main_arg1)) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
        = planes (m ((c : Thread nD τ).loc main_arg0)) (m ((c : Thread nD τ).loc main_arg1)) from
      (Pipeline.withArrays_arr spec0 launch0.win.arr_inj c _ _ 2).trans (final m c)]
  funext i
  exact transpose_apply [1, 2, 0] _ transposes_S8x1024x4096_S1024x4096x8_1_2_0 i (ix3 (i 2) (i 0) (i 1))
    (fun b => match b with | ⟨0, _⟩ => rfl | ⟨1, _⟩ => rfl | ⟨2, _⟩ => rfl)

/-- THE KERNEL'S RUN: every weakly fair execution terminates with the result at `G` of the two arguments, the arguments
    unchanged. -/
theorem run : θ_run defs (onTc (τ := τ) (main (F := F))) ⟨m, fun _ => 0, ρ⟩ fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Arr

end
-- ==== Proof.RefWindows.lean ====
/-
  The reference's run, window by window.

  The reference is a straight line of 335 host operations in static single assignment: every buffer is written once, by
  the operation that defines it, from buffers written before. The line is cut into six consecutive windows, the parts
  @main is printed in. The contents after a window are the
  contents before it with the window's operations applied in order, so it is enough to know, at each cut, the buffers a later
  window still reads: the invariant `Live k` says each of them holds its staged value — the composed value of module
  RefStages, a function of the two arguments alone. A window carries the invariant on: a live buffer it does not write keeps
  its contents, and one it writes holds its defining operation applied to operands that are live or written earlier in
  the same window, which is the staged value by definition. After the last window the result holds `val_main_v235` of the
  two arguments, and the arguments are as launched.
-/
import proofs.«100081_j76312978916090_2_alg».proof.Proof.RefStages
import proofs.«100081_j76312978916090_2_alg».proof.Proof.RefRun
import Idealize.ShloMosaic.Lib.StableHlo.Run

set_option maxRecDepth 16384

noncomputable section

namespace Cert.ReferenceIdeal.Windows

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-- The contents after two lines run one after the other: the second line's, from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons]; exact ih _

variable (A0 A1 : (⟨S1024x4096x8, .f32⟩ : BufTy).Contents (Elt F))

/-! ## The invariant at each cut -/

/-- After window 0 (at launch): each buffer a later window reads, the two arguments, at its staged value. -/
def Live0 (W : Valuation τ sig (Elt F)) : Prop :=
  W (Proc.devRef .tc main_arg0) = A0
  ∧ W (Proc.devRef .tc main_arg1) = A1

/-- After window 1: each buffer a later window reads, the two arguments, at its staged value. -/
def Live1 (W : Valuation τ sig (Elt F)) : Prop :=
  W (Proc.devRef .tc main_arg0) = A0
  ∧ W (Proc.devRef .tc main_arg1) = A1
  ∧ W (Proc.devRef .tc main_v2) = val_main_v2 (F := F) A0
  ∧ W (Proc.devRef .tc main_v19) = val_main_v19 (F := F) A0
  ∧ W (Proc.devRef .tc main_v31) = val_main_v31 (F := F) A0
  ∧ W (Proc.devRef .tc main_v32) = val_main_v32 (F := F) A1
  ∧ W (Proc.devRef .tc main_v34) = val_main_v34 (F := F) A1
  ∧ W (Proc.devRef .tc main_v51) = val_main_v51 (F := F) A1

/-- After window 2: each buffer a later window reads, the two arguments, at its staged value. -/
def Live2 (W : Valuation τ sig (Elt F)) : Prop :=
  W (Proc.devRef .tc main_arg0) = A0
  ∧ W (Proc.devRef .tc main_arg1) = A1
  ∧ W (Proc.devRef .tc main_v2) = val_main_v2 (F := F) A0
  ∧ W (Proc.devRef .tc main_v34) = val_main_v34 (F := F) A1
  ∧ W (Proc.devRef .tc main_v84) = val_main_v84 (F := F) A0 A1
  ∧ W (Proc.devRef .tc main_v87) = val_main_v87 (F := F) A0 A1
  ∧ W (Proc.devRef .tc main_v92) = val_main_v92 (F := F) A0 A1
  ∧ W (Proc.devRef .tc main_v95) = val_main_v95 (F := F) A0 A1

/-- After window 3: each buffer a later window reads, the two arguments, at its staged value. -/
def Live3 (W : Valuation τ sig (Elt F)) : Prop :=
  W (Proc.devRef .tc main_arg0) = A0
  ∧ W (Proc.devRef .tc main_arg1) = A1
  ∧ W (Proc.devRef .tc main_v2) = val_main_v2 (F := F) A0
  ∧ W (Proc.devRef .tc main_v34) = val_main_v34 (F := F) A1
  ∧ W (Proc.devRef .tc main_v84) = val_main_v84 (F := F) A0 A1
  ∧ W (Proc.devRef .tc main_v87) = val_main_v87 (F := F) A0 A1
  ∧ W (Proc.devRef .tc main_v119) = val_main_v119 (F := F) A0 A1
  ∧ W (Proc.devRef .tc main_v123) = val_main_v123 (F := F) A0 A1
  ∧ W (Proc.devRef .tc main_v126) = val_main_v126 (F := F) A0 A1
  ∧ W (Proc.devRef .tc main_v127) = val_main_v127 (F := F) A0 A1
  ∧ W (Proc.devRef .tc main_v141) = val_main_v141 (F := F) A0 A1
  ∧ W (Proc.devRef .tc main_c_36) = val_main_c_36 (F := F)

/-- After window 4: each buffer a later window reads, the two arguments, at its staged value. -/
def Live4 (W : Valuation τ sig (Elt F)) : Prop :=
  W (Proc.devRef .tc main_arg0) = A0
  ∧ W (Proc.devRef .tc main_arg1) = A1
  ∧ W (Proc.devRef .tc main_v2) = val_main_v2 (F := F) A0
  ∧ W (Proc.devRef .tc main_v34) = val_main_v34 (F := F) A1
  ∧ W (Proc.devRef .tc main_v84) = val_main_v84 (F := F) A0 A1
  ∧ W (Proc.devRef .tc main_v119) = val_main_v119 (F := F) A0 A1
  ∧ W (Proc.devRef .tc main_v158) = val_main_v158 (F := F) A0 A1
  ∧ W (Proc.devRef .tc main_v159) = val_main_v159 (F := F) A0 A1
  ∧ W (Proc.devRef .tc main_v183) = val_main_v183 (F := F) A0 A1
  ∧ W (Proc.devRef .tc main_v185) = val_main_v185 (F := F) A0 A1

/-- After window 5: each buffer a later window reads, the two arguments, at its staged value. -/
def Live5 (W : Valuation τ sig (Elt F)) : Prop :=
  W (Proc.devRef .tc main_arg0) = A0
  ∧ W (Proc.devRef .tc main_arg1) = A1
  ∧ W (Proc.devRef .tc main_v200) = val_main_v200 (F := F) A0 A1
  ∧ W (Proc.devRef .tc main_v201) = val_main_v201 (F := F) A0 A1
  ∧ W (Proc.devRef .tc main_v205) = val_main_v205 (F := F) A0 A1
  ∧ W (Proc.devRef .tc main_v209) = val_main_v209 (F := F) A0 A1
  ∧ W (Proc.devRef .tc main_v213) = val_main_v213 (F := F) A0 A1
  ∧ W (Proc.devRef .tc main_v215) = val_main_v215 (F := F) A0 A1
  ∧ W (Proc.devRef .tc main_v219) = val_main_v219 (F := F) A0 A1
  ∧ W (Proc.devRef .tc main_v223) = val_main_v223 (F := F) A0 A1
  ∧ W (Proc.devRef .tc main_v224) = val_main_v224 (F := F)

/-- After window 6: each buffer a later window reads, the two arguments and the result, at its staged value. -/
def Live6 (W : Valuation τ sig (Elt F)) : Prop :=
  W (Proc.devRef .tc main_arg0) = A0
  ∧ W (Proc.devRef .tc main_arg1) = A1
  ∧ W (Proc.devRef .tc main_v235) = val_main_v235 (F := F) A0 A1

/-! ## Each window carries it on -/

/-- A live buffer the window does not write keeps its contents. -/
local macro "kept " h:ident : tactic => `(tactic| exact Eq.trans (by after_results_simp) $h)

/-! A buffer the window writes holds its defining operations applied to the live buffers, which hold their staged values: that is
    the buffer's own staged value, once the staged values written in this window are unfolded to the same operations (the simp pass over the
    window, an operand list `![…] k` evaluated, the live buffers rewritten, the window's own staged definitions unfolded, and the
    transports of a called function's operands along `r.ty = T`, identities at a literal buffer, removed). -/

set_option maxHeartbeats 1600000 in
/-- Window 1 (60 operations) carries the staged values on. -/
theorem step1 (W : Valuation τ sig (Elt F)) (h : Live0 A0 A1 W) : Live1 A0 A1 (after ops1 W) := by
  obtain ⟨h_arg0, h_arg1⟩ := h
  refine ⟨?_, ?_, ?_, ?_, ?_, ?_, ?_, ?_⟩
  · kept h_arg0
  · kept h_arg1
  · after_results_simp
    try simp only [Matrix.cons_val_zero, Matrix.cons_val]
    try after_results_simp
    try simp only [h_arg0, h_arg1]
    try simp only [val_main_v0, val_main_v1, val_main_v2, val_main_v3, val_main_v4, val_main_c, val_main_v5, val_main_v6, val_main_v7, val_main_v8, val_main_c_0, val_main_v9, val_main_v10, val_main_v11, val_main_v12, val_main_v13, val_main_c_1, val_main_v14, val_main_v15, val_main_v16, val_main_v17, val_main_v18, val_main_v19, val_main_v20, val_main_v21, val_main_c_2, val_main_v22, val_main_v23, val_main_v24, val_main_v25, val_main_c_3, val_main_v26, val_main_v27, val_main_v28, val_main_v29, val_main_v30, val_main_v31, val_main_v32, val_main_v33, val_main_v34, val_main_v35, val_main_v36, val_main_c_4, val_main_v37, val_main_v38, val_main_v39, val_main_v40, val_main_c_5, val_main_v41, val_main_v42, val_main_v43, val_main_v44, val_main_v45, val_main_c_6, val_main_v46, val_main_v47, val_main_v48, val_main_v49, val_main_v50, val_main_v51]
    try simp only [TRef.toBuf, TRef.ofBuf, cast_eq]
    try rfl
  · after_results_simp
    try simp only [Matrix.cons_val_zero, Matrix.cons_val]
    try after_results_simp
    try simp only [h_arg0, h_arg1]
    try simp only [val_main_v0, val_main_v1, val_main_v2, val_main_v3, val_main_v4, val_main_c, val_main_v5, val_main_v6, val_main_v7, val_main_v8, val_main_c_0, val_main_v9, val_main_v10, val_main_v11, val_main_v12, val_main_v13, val_main_c_1, val_main_v14, val_main_v15, val_main_v16, val_main_v17, val_main_v18, val_main_v19, val_main_v20, val_main_v21, val_main_c_2, val_main_v22, val_main_v23, val_main_v24, val_main_v25, val_main_c_3, val_main_v26, val_main_v27, val_main_v28, val_main_v29, val_main_v30, val_main_v31, val_main_v32, val_main_v33, val_main_v34, val_main_v35, val_main_v36, val_main_c_4, val_main_v37, val_main_v38, val_main_v39, val_main_v40, val_main_c_5, val_main_v41, val_main_v42, val_main_v43, val_main_v44, val_main_v45, val_main_c_6, val_main_v46, val_main_v47, val_main_v48, val_main_v49, val_main_v50, val_main_v51]
    try simp only [TRef.toBuf, TRef.ofBuf, cast_eq]
    try rfl
  · after_results_simp
    try simp only [Matrix.cons_val_zero, Matrix.cons_val]
    try after_results_simp
    try simp only [h_arg0, h_arg1]
    try simp only [val_main_v0, val_main_v1, val_main_v2, val_main_v3, val_main_v4, val_main_c, val_main_v5, val_main_v6, val_main_v7, val_main_v8, val_main_c_0, val_main_v9, val_main_v10, val_main_v11, val_main_v12, val_main_v13, val_main_c_1, val_main_v14, val_main_v15, val_main_v16, val_main_v17, val_main_v18, val_main_v19, val_main_v20, val_main_v21, val_main_c_2, val_main_v22, val_main_v23, val_main_v24, val_main_v25, val_main_c_3, val_main_v26, val_main_v27, val_main_v28, val_main_v29, val_main_v30, val_main_v31, val_main_v32, val_main_v33, val_main_v34, val_main_v35, val_main_v36, val_main_c_4, val_main_v37, val_main_v38, val_main_v39, val_main_v40, val_main_c_5, val_main_v41, val_main_v42, val_main_v43, val_main_v44, val_main_v45, val_main_c_6, val_main_v46, val_main_v47, val_main_v48, val_main_v49, val_main_v50, val_main_v51]
    try simp only [TRef.toBuf, TRef.ofBuf, cast_eq]
    try rfl
  · after_results_simp
    try simp only [Matrix.cons_val_zero, Matrix.cons_val]
    try after_results_simp
    try simp only [h_arg0, h_arg1]
    try simp only [val_main_v0, val_main_v1, val_main_v2, val_main_v3, val_main_v4, val_main_c, val_main_v5, val_main_v6, val_main_v7, val_main_v8, val_main_c_0, val_main_v9, val_main_v10, val_main_v11, val_main_v12, val_main_v13, val_main_c_1, val_main_v14, val_main_v15, val_main_v16, val_main_v17, val_main_v18, val_main_v19, val_main_v20, val_main_v21, val_main_c_2, val_main_v22, val_main_v23, val_main_v24, val_main_v25, val_main_c_3, val_main_v26, val_main_v27, val_main_v28, val_main_v29, val_main_v30, val_main_v31, val_main_v32, val_main_v33, val_main_v34, val_main_v35, val_main_v36, val_main_c_4, val_main_v37, val_main_v38, val_main_v39, val_main_v40, val_main_c_5, val_main_v41, val_main_v42, val_main_v43, val_main_v44, val_main_v45, val_main_c_6, val_main_v46, val_main_v47, val_main_v48, val_main_v49, val_main_v50, val_main_v51]
    try simp only [TRef.toBuf, TRef.ofBuf, cast_eq]
    try rfl
  · after_results_simp
    try simp only [Matrix.cons_val_zero, Matrix.cons_val]
    try after_results_simp
    try simp only [h_arg0, h_arg1]
    try simp only [val_main_v0, val_main_v1, val_main_v2, val_main_v3, val_main_v4, val_main_c, val_main_v5, val_main_v6, val_main_v7, val_main_v8, val_main_c_0, val_main_v9, val_main_v10, val_main_v11, val_main_v12, val_main_v13, val_main_c_1, val_main_v14, val_main_v15, val_main_v16, val_main_v17, val_main_v18, val_main_v19, val_main_v20, val_main_v21, val_main_c_2, val_main_v22, val_main_v23, val_main_v24, val_main_v25, val_main_c_3, val_main_v26, val_main_v27, val_main_v28, val_main_v29, val_main_v30, val_main_v31, val_main_v32, val_main_v33, val_main_v34, val_main_v35, val_main_v36, val_main_c_4, val_main_v37, val_main_v38, val_main_v39, val_main_v40, val_main_c_5, val_main_v41, val_main_v42, val_main_v43, val_main_v44, val_main_v45, val_main_c_6, val_main_v46, val_main_v47, val_main_v48, val_main_v49, val_main_v50, val_main_v51]
    try simp only [TRef.toBuf, TRef.ofBuf, cast_eq]
    try rfl
  · after_results_simp
    try simp only [Matrix.cons_val_zero, Matrix.cons_val]
    try after_results_simp
    try simp only [h_arg0, h_arg1]
    try simp only [val_main_v0, val_main_v1, val_main_v2, val_main_v3, val_main_v4, val_main_c, val_main_v5, val_main_v6, val_main_v7, val_main_v8, val_main_c_0, val_main_v9, val_main_v10, val_main_v11, val_main_v12, val_main_v13, val_main_c_1, val_main_v14, val_main_v15, val_main_v16, val_main_v17, val_main_v18, val_main_v19, val_main_v20, val_main_v21, val_main_c_2, val_main_v22, val_main_v23, val_main_v24, val_main_v25, val_main_c_3, val_main_v26, val_main_v27, val_main_v28, val_main_v29, val_main_v30, val_main_v31, val_main_v32, val_main_v33, val_main_v34, val_main_v35, val_main_v36, val_main_c_4, val_main_v37, val_main_v38, val_main_v39, val_main_v40, val_main_c_5, val_main_v41, val_main_v42, val_main_v43, val_main_v44, val_main_v45, val_main_c_6, val_main_v46, val_main_v47, val_main_v48, val_main_v49, val_main_v50, val_main_v51]
    try simp only [TRef.toBuf, TRef.ofBuf, cast_eq]
    try rfl

set_option maxHeartbeats 1600000 in
/-- Window 2 (64 operations) carries the staged values on. -/
theorem step2 (W : Valuation τ sig (Elt F)) (h : Live1 A0 A1 W) : Live2 A0 A1 (after ops2 W) := by
  obtain ⟨h_arg0, h_arg1, h_v2, h_v19, h_v31, h_v32, h_v34, h_v51⟩ := h
  refine ⟨?_, ?_, ?_, ?_, ?_, ?_, ?_, ?_⟩
  · kept h_arg0
  · kept h_arg1
  · kept h_v2
  · kept h_v34
  · after_results_simp
    try simp only [Matrix.cons_val_zero, Matrix.cons_val]
    try after_results_simp
    try simp only [h_arg0, h_arg1, h_v2, h_v19, h_v31, h_v32, h_v34, h_v51]
    try simp only [val_main_v52, val_main_v53, val_main_c_7, val_main_v54, val_main_v55, val_main_v56, val_main_v57, val_main_c_8, val_main_v58, val_main_v59, val_main_v60, val_main_v61, val_main_v62, val_main_v63, val_main_c_9, val_main_v64, val_main_v65, val_main_c_10, val_main_v66, val_main_v67, val_main_v68, val_main_c_11, val_main_v69, val_main_v70, val_main_c_12, val_main_v71, val_main_v72, val_main_v73, val_main_c_13, val_main_v74, val_main_v75, val_main_c_14, val_main_call2_v0, val_main_call2_v1, val_main_v76, val_main_c_15, val_main_v77, val_main_v78, val_main_c_16, val_main_v79, val_main_v80, val_main_c_17, val_main_call3_v0, val_main_call3_v1, val_main_v81, val_main_c_18, val_main_v82, val_main_v83, val_main_v84, val_main_v85, val_main_c_19, val_main_v86, val_main_v87, val_main_c_20, val_main_v88, val_main_c_21, val_main_v89, val_main_v90, val_main_v91, val_main_v92, val_main_c_22, val_main_v93, val_main_v94, val_main_v95]
    try simp only [TRef.toBuf, TRef.ofBuf, cast_eq]
    try rfl
  · after_results_simp
    try simp only [Matrix.cons_val_zero, Matrix.cons_val]
    try after_results_simp
    try simp only [h_arg0, h_arg1, h_v2, h_v19, h_v31, h_v32, h_v34, h_v51]
    try simp only [val_main_v52, val_main_v53, val_main_c_7, val_main_v54, val_main_v55, val_main_v56, val_main_v57, val_main_c_8, val_main_v58, val_main_v59, val_main_v60, val_main_v61, val_main_v62, val_main_v63, val_main_c_9, val_main_v64, val_main_v65, val_main_c_10, val_main_v66, val_main_v67, val_main_v68, val_main_c_11, val_main_v69, val_main_v70, val_main_c_12, val_main_v71, val_main_v72, val_main_v73, val_main_c_13, val_main_v74, val_main_v75, val_main_c_14, val_main_call2_v0, val_main_call2_v1, val_main_v76, val_main_c_15, val_main_v77, val_main_v78, val_main_c_16, val_main_v79, val_main_v80, val_main_c_17, val_main_call3_v0, val_main_call3_v1, val_main_v81, val_main_c_18, val_main_v82, val_main_v83, val_main_v84, val_main_v85, val_main_c_19, val_main_v86, val_main_v87, val_main_c_20, val_main_v88, val_main_c_21, val_main_v89, val_main_v90, val_main_v91, val_main_v92, val_main_c_22, val_main_v93, val_main_v94, val_main_v95]
    try simp only [TRef.toBuf, TRef.ofBuf, cast_eq]
    try rfl
  · after_results_simp
    try simp only [Matrix.cons_val_zero, Matrix.cons_val]
    try after_results_simp
    try simp only [h_arg0, h_arg1, h_v2, h_v19, h_v31, h_v32, h_v34, h_v51]
    try simp only [val_main_v52, val_main_v53, val_main_c_7, val_main_v54, val_main_v55, val_main_v56, val_main_v57, val_main_c_8, val_main_v58, val_main_v59, val_main_v60, val_main_v61, val_main_v62, val_main_v63, val_main_c_9, val_main_v64, val_main_v65, val_main_c_10, val_main_v66, val_main_v67, val_main_v68, val_main_c_11, val_main_v69, val_main_v70, val_main_c_12, val_main_v71, val_main_v72, val_main_v73, val_main_c_13, val_main_v74, val_main_v75, val_main_c_14, val_main_call2_v0, val_main_call2_v1, val_main_v76, val_main_c_15, val_main_v77, val_main_v78, val_main_c_16, val_main_v79, val_main_v80, val_main_c_17, val_main_call3_v0, val_main_call3_v1, val_main_v81, val_main_c_18, val_main_v82, val_main_v83, val_main_v84, val_main_v85, val_main_c_19, val_main_v86, val_main_v87, val_main_c_20, val_main_v88, val_main_c_21, val_main_v89, val_main_v90, val_main_v91, val_main_v92, val_main_c_22, val_main_v93, val_main_v94, val_main_v95]
    try simp only [TRef.toBuf, TRef.ofBuf, cast_eq]
    try rfl
  · after_results_simp
    try simp only [Matrix.cons_val_zero, Matrix.cons_val]
    try after_results_simp
    try simp only [h_arg0, h_arg1, h_v2, h_v19, h_v31, h_v32, h_v34, h_v51]
    try simp only [val_main_v52, val_main_v53, val_main_c_7, val_main_v54, val_main_v55, val_main_v56, val_main_v57, val_main_c_8, val_main_v58, val_main_v59, val_main_v60, val_main_v61, val_main_v62, val_main_v63, val_main_c_9, val_main_v64, val_main_v65, val_main_c_10, val_main_v66, val_main_v67, val_main_v68, val_main_c_11, val_main_v69, val_main_v70, val_main_c_12, val_main_v71, val_main_v72, val_main_v73, val_main_c_13, val_main_v74, val_main_v75, val_main_c_14, val_main_call2_v0, val_main_call2_v1, val_main_v76, val_main_c_15, val_main_v77, val_main_v78, val_main_c_16, val_main_v79, val_main_v80, val_main_c_17, val_main_call3_v0, val_main_call3_v1, val_main_v81, val_main_c_18, val_main_v82, val_main_v83, val_main_v84, val_main_v85, val_main_c_19, val_main_v86, val_main_v87, val_main_c_20, val_main_v88, val_main_c_21, val_main_v89, val_main_v90, val_main_v91, val_main_v92, val_main_c_22, val_main_v93, val_main_v94, val_main_v95]
    try simp only [TRef.toBuf, TRef.ofBuf, cast_eq]
    try rfl

set_option maxHeartbeats 1600000 in
/-- Window 3 (60 operations) carries the staged values on. -/
theorem step3 (W : Valuation τ sig (Elt F)) (h : Live2 A0 A1 W) : Live3 A0 A1 (after ops3 W) := by
  obtain ⟨h_arg0, h_arg1, h_v2, h_v34, h_v84, h_v87, h_v92, h_v95⟩ := h
  refine ⟨?_, ?_, ?_, ?_, ?_, ?_, ?_, ?_, ?_, ?_, ?_, ?_⟩
  · kept h_arg0
  · kept h_arg1
  · kept h_v2
  · kept h_v34
  · kept h_v84
  · kept h_v87
  · after_results_simp
    try simp only [Matrix.cons_val_zero, Matrix.cons_val]
    try after_results_simp
    try simp only [h_arg0, h_arg1, h_v2, h_v34, h_v84, h_v87, h_v92, h_v95]
    try simp only [val_main_v96, val_main_c_23, val_main_v97, val_main_v98, val_main_v99, val_main_v100, val_main_c_24, val_main_v101, val_main_v102, val_main_v103, val_main_v104, val_main_c_25, val_main_v105, val_main_v106, val_main_v107, val_main_v108, val_main_c_26, val_main_v109, val_main_v110, val_main_v111, val_main_v112, val_main_c_27, val_main_v113, val_main_v114, val_main_v115, val_main_v116, val_main_v117, val_main_c_28, val_main_v118, val_main_v119, val_main_c_29, val_main_v120, val_main_v121, val_main_c_30, val_main_v122, val_main_v123, val_main_v124, val_main_c_31, val_main_v125, val_main_v126, val_main_v127, val_main_v128, val_main_v129, val_main_c_32, val_main_v130, val_main_v131, val_main_c_33, val_main_v132, val_main_v133, val_main_v134, val_main_v135, val_main_c_34, val_main_v136, val_main_v137, val_main_c_35, val_main_v138, val_main_v139, val_main_v140, val_main_v141, val_main_c_36]
    try simp only [TRef.toBuf, TRef.ofBuf, cast_eq]
    try rfl
  · after_results_simp
    try simp only [Matrix.cons_val_zero, Matrix.cons_val]
    try after_results_simp
    try simp only [h_arg0, h_arg1, h_v2, h_v34, h_v84, h_v87, h_v92, h_v95]
    try simp only [val_main_v96, val_main_c_23, val_main_v97, val_main_v98, val_main_v99, val_main_v100, val_main_c_24, val_main_v101, val_main_v102, val_main_v103, val_main_v104, val_main_c_25, val_main_v105, val_main_v106, val_main_v107, val_main_v108, val_main_c_26, val_main_v109, val_main_v110, val_main_v111, val_main_v112, val_main_c_27, val_main_v113, val_main_v114, val_main_v115, val_main_v116, val_main_v117, val_main_c_28, val_main_v118, val_main_v119, val_main_c_29, val_main_v120, val_main_v121, val_main_c_30, val_main_v122, val_main_v123, val_main_v124, val_main_c_31, val_main_v125, val_main_v126, val_main_v127, val_main_v128, val_main_v129, val_main_c_32, val_main_v130, val_main_v131, val_main_c_33, val_main_v132, val_main_v133, val_main_v134, val_main_v135, val_main_c_34, val_main_v136, val_main_v137, val_main_c_35, val_main_v138, val_main_v139, val_main_v140, val_main_v141, val_main_c_36]
    try simp only [TRef.toBuf, TRef.ofBuf, cast_eq]
    try rfl
  · after_results_simp
    try simp only [Matrix.cons_val_zero, Matrix.cons_val]
    try after_results_simp
    try simp only [h_arg0, h_arg1, h_v2, h_v34, h_v84, h_v87, h_v92, h_v95]
    try simp only [val_main_v96, val_main_c_23, val_main_v97, val_main_v98, val_main_v99, val_main_v100, val_main_c_24, val_main_v101, val_main_v102, val_main_v103, val_main_v104, val_main_c_25, val_main_v105, val_main_v106, val_main_v107, val_main_v108, val_main_c_26, val_main_v109, val_main_v110, val_main_v111, val_main_v112, val_main_c_27, val_main_v113, val_main_v114, val_main_v115, val_main_v116, val_main_v117, val_main_c_28, val_main_v118, val_main_v119, val_main_c_29, val_main_v120, val_main_v121, val_main_c_30, val_main_v122, val_main_v123, val_main_v124, val_main_c_31, val_main_v125, val_main_v126, val_main_v127, val_main_v128, val_main_v129, val_main_c_32, val_main_v130, val_main_v131, val_main_c_33, val_main_v132, val_main_v133, val_main_v134, val_main_v135, val_main_c_34, val_main_v136, val_main_v137, val_main_c_35, val_main_v138, val_main_v139, val_main_v140, val_main_v141, val_main_c_36]
    try simp only [TRef.toBuf, TRef.ofBuf, cast_eq]
    try rfl
  · after_results_simp
    try simp only [Matrix.cons_val_zero, Matrix.cons_val]
    try after_results_simp
    try simp only [h_arg0, h_arg1, h_v2, h_v34, h_v84, h_v87, h_v92, h_v95]
    try simp only [val_main_v96, val_main_c_23, val_main_v97, val_main_v98, val_main_v99, val_main_v100, val_main_c_24, val_main_v101, val_main_v102, val_main_v103, val_main_v104, val_main_c_25, val_main_v105, val_main_v106, val_main_v107, val_main_v108, val_main_c_26, val_main_v109, val_main_v110, val_main_v111, val_main_v112, val_main_c_27, val_main_v113, val_main_v114, val_main_v115, val_main_v116, val_main_v117, val_main_c_28, val_main_v118, val_main_v119, val_main_c_29, val_main_v120, val_main_v121, val_main_c_30, val_main_v122, val_main_v123, val_main_v124, val_main_c_31, val_main_v125, val_main_v126, val_main_v127, val_main_v128, val_main_v129, val_main_c_32, val_main_v130, val_main_v131, val_main_c_33, val_main_v132, val_main_v133, val_main_v134, val_main_v135, val_main_c_34, val_main_v136, val_main_v137, val_main_c_35, val_main_v138, val_main_v139, val_main_v140, val_main_v141, val_main_c_36]
    try simp only [TRef.toBuf, TRef.ofBuf, cast_eq]
    try rfl
  · after_results_simp
    try simp only [Matrix.cons_val_zero, Matrix.cons_val]
    try after_results_simp
    try simp only [h_arg0, h_arg1, h_v2, h_v34, h_v84, h_v87, h_v92, h_v95]
    try simp only [val_main_v96, val_main_c_23, val_main_v97, val_main_v98, val_main_v99, val_main_v100, val_main_c_24, val_main_v101, val_main_v102, val_main_v103, val_main_v104, val_main_c_25, val_main_v105, val_main_v106, val_main_v107, val_main_v108, val_main_c_26, val_main_v109, val_main_v110, val_main_v111, val_main_v112, val_main_c_27, val_main_v113, val_main_v114, val_main_v115, val_main_v116, val_main_v117, val_main_c_28, val_main_v118, val_main_v119, val_main_c_29, val_main_v120, val_main_v121, val_main_c_30, val_main_v122, val_main_v123, val_main_v124, val_main_c_31, val_main_v125, val_main_v126, val_main_v127, val_main_v128, val_main_v129, val_main_c_32, val_main_v130, val_main_v131, val_main_c_33, val_main_v132, val_main_v133, val_main_v134, val_main_v135, val_main_c_34, val_main_v136, val_main_v137, val_main_c_35, val_main_v138, val_main_v139, val_main_v140, val_main_v141, val_main_c_36]
    try simp only [TRef.toBuf, TRef.ofBuf, cast_eq]
    try rfl
  · after_results_simp
    try simp only [Matrix.cons_val_zero, Matrix.cons_val]
    try after_results_simp
    try simp only [h_arg0, h_arg1, h_v2, h_v34, h_v84, h_v87, h_v92, h_v95]
    try simp only [val_main_v96, val_main_c_23, val_main_v97, val_main_v98, val_main_v99, val_main_v100, val_main_c_24, val_main_v101, val_main_v102, val_main_v103, val_main_v104, val_main_c_25, val_main_v105, val_main_v106, val_main_v107, val_main_v108, val_main_c_26, val_main_v109, val_main_v110, val_main_v111, val_main_v112, val_main_c_27, val_main_v113, val_main_v114, val_main_v115, val_main_v116, val_main_v117, val_main_c_28, val_main_v118, val_main_v119, val_main_c_29, val_main_v120, val_main_v121, val_main_c_30, val_main_v122, val_main_v123, val_main_v124, val_main_c_31, val_main_v125, val_main_v126, val_main_v127, val_main_v128, val_main_v129, val_main_c_32, val_main_v130, val_main_v131, val_main_c_33, val_main_v132, val_main_v133, val_main_v134, val_main_v135, val_main_c_34, val_main_v136, val_main_v137, val_main_c_35, val_main_v138, val_main_v139, val_main_v140, val_main_v141, val_main_c_36]
    try simp only [TRef.toBuf, TRef.ofBuf, cast_eq]
    try rfl

set_option maxHeartbeats 1600000 in
/-- Window 4 (71 operations) carries the staged values on. -/
theorem step4 (W : Valuation τ sig (Elt F)) (h : Live3 A0 A1 W) : Live4 A0 A1 (after ops4 W) := by
  obtain ⟨h_arg0, h_arg1, h_v2, h_v34, h_v84, h_v87, h_v119, h_v123, h_v126, h_v127, h_v141, h_c_36⟩ := h
  refine ⟨?_, ?_, ?_, ?_, ?_, ?_, ?_, ?_, ?_, ?_⟩
  · kept h_arg0
  · kept h_arg1
  · kept h_v2
  · kept h_v34
  · kept h_v84
  · kept h_v119
  · after_results_simp
    try simp only [Matrix.cons_val_zero, Matrix.cons_val]
    try after_results_simp
    try simp only [h_arg0, h_arg1, h_v2, h_v34, h_v84, h_v87, h_v119, h_v123, h_v126, h_v127, h_v141, h_c_36]
    try simp only [val_main_v142, val_main_v143, val_main_v144, val_main_v145, val_main_v146, val_main_v147, val_main_c_37, val_main_v148, val_main_v149, val_main_c_38, val_main_v150, val_main_v151, val_main_c_39, val_main_call4_v0, val_main_call4_v1, val_main_v152, val_main_v153, val_main_c_40, val_main_v154, val_main_v155, val_main_c_41, val_main_v156, val_main_v157, val_main_c_42, val_main_call5_v0, val_main_call5_v1, val_main_v158, val_main_c_43, val_main_call6_v0, val_main_call6_v1, val_main_v159, val_main_c_44, val_main_v160, val_main_v161, val_main_v162, val_main_c_45, val_main_c_46, val_main_call7_v0, val_main_call7_v1, val_main_call7_v2, val_main_call7_v3, val_main_call7_v4, val_main_v163, val_main_v164, val_main_v165, val_main_v166, val_main_c_47, val_main_v167, val_main_v168, val_main_c_48, val_main_v169, val_main_v170, val_main_v171, val_main_v172, val_main_c_49, val_main_v173, val_main_v174, val_main_c_50, val_main_v175, val_main_v176, val_main_v177, val_main_v178, val_main_c_51, val_main_v179, val_main_v180, val_main_v181, val_main_v182, val_main_v183, val_main_c_52, val_main_v184, val_main_v185]
    try simp only [TRef.toBuf, TRef.ofBuf, cast_eq]
    try rfl
  · after_results_simp
    try simp only [Matrix.cons_val_zero, Matrix.cons_val]
    try after_results_simp
    try simp only [h_arg0, h_arg1, h_v2, h_v34, h_v84, h_v87, h_v119, h_v123, h_v126, h_v127, h_v141, h_c_36]
    try simp only [val_main_v142, val_main_v143, val_main_v144, val_main_v145, val_main_v146, val_main_v147, val_main_c_37, val_main_v148, val_main_v149, val_main_c_38, val_main_v150, val_main_v151, val_main_c_39, val_main_call4_v0, val_main_call4_v1, val_main_v152, val_main_v153, val_main_c_40, val_main_v154, val_main_v155, val_main_c_41, val_main_v156, val_main_v157, val_main_c_42, val_main_call5_v0, val_main_call5_v1, val_main_v158, val_main_c_43, val_main_call6_v0, val_main_call6_v1, val_main_v159, val_main_c_44, val_main_v160, val_main_v161, val_main_v162, val_main_c_45, val_main_c_46, val_main_call7_v0, val_main_call7_v1, val_main_call7_v2, val_main_call7_v3, val_main_call7_v4, val_main_v163, val_main_v164, val_main_v165, val_main_v166, val_main_c_47, val_main_v167, val_main_v168, val_main_c_48, val_main_v169, val_main_v170, val_main_v171, val_main_v172, val_main_c_49, val_main_v173, val_main_v174, val_main_c_50, val_main_v175, val_main_v176, val_main_v177, val_main_v178, val_main_c_51, val_main_v179, val_main_v180, val_main_v181, val_main_v182, val_main_v183, val_main_c_52, val_main_v184, val_main_v185]
    try simp only [TRef.toBuf, TRef.ofBuf, cast_eq]
    try rfl
  · after_results_simp
    try simp only [Matrix.cons_val_zero, Matrix.cons_val]
    try after_results_simp
    try simp only [h_arg0, h_arg1, h_v2, h_v34, h_v84, h_v87, h_v119, h_v123, h_v126, h_v127, h_v141, h_c_36]
    try simp only [val_main_v142, val_main_v143, val_main_v144, val_main_v145, val_main_v146, val_main_v147, val_main_c_37, val_main_v148, val_main_v149, val_main_c_38, val_main_v150, val_main_v151, val_main_c_39, val_main_call4_v0, val_main_call4_v1, val_main_v152, val_main_v153, val_main_c_40, val_main_v154, val_main_v155, val_main_c_41, val_main_v156, val_main_v157, val_main_c_42, val_main_call5_v0, val_main_call5_v1, val_main_v158, val_main_c_43, val_main_call6_v0, val_main_call6_v1, val_main_v159, val_main_c_44, val_main_v160, val_main_v161, val_main_v162, val_main_c_45, val_main_c_46, val_main_call7_v0, val_main_call7_v1, val_main_call7_v2, val_main_call7_v3, val_main_call7_v4, val_main_v163, val_main_v164, val_main_v165, val_main_v166, val_main_c_47, val_main_v167, val_main_v168, val_main_c_48, val_main_v169, val_main_v170, val_main_v171, val_main_v172, val_main_c_49, val_main_v173, val_main_v174, val_main_c_50, val_main_v175, val_main_v176, val_main_v177, val_main_v178, val_main_c_51, val_main_v179, val_main_v180, val_main_v181, val_main_v182, val_main_v183, val_main_c_52, val_main_v184, val_main_v185]
    try simp only [TRef.toBuf, TRef.ofBuf, cast_eq]
    try rfl
  · after_results_simp
    try simp only [Matrix.cons_val_zero, Matrix.cons_val]
    try after_results_simp
    try simp only [h_arg0, h_arg1, h_v2, h_v34, h_v84, h_v87, h_v119, h_v123, h_v126, h_v127, h_v141, h_c_36]
    try simp only [val_main_v142, val_main_v143, val_main_v144, val_main_v145, val_main_v146, val_main_v147, val_main_c_37, val_main_v148, val_main_v149, val_main_c_38, val_main_v150, val_main_v151, val_main_c_39, val_main_call4_v0, val_main_call4_v1, val_main_v152, val_main_v153, val_main_c_40, val_main_v154, val_main_v155, val_main_c_41, val_main_v156, val_main_v157, val_main_c_42, val_main_call5_v0, val_main_call5_v1, val_main_v158, val_main_c_43, val_main_call6_v0, val_main_call6_v1, val_main_v159, val_main_c_44, val_main_v160, val_main_v161, val_main_v162, val_main_c_45, val_main_c_46, val_main_call7_v0, val_main_call7_v1, val_main_call7_v2, val_main_call7_v3, val_main_call7_v4, val_main_v163, val_main_v164, val_main_v165, val_main_v166, val_main_c_47, val_main_v167, val_main_v168, val_main_c_48, val_main_v169, val_main_v170, val_main_v171, val_main_v172, val_main_c_49, val_main_v173, val_main_v174, val_main_c_50, val_main_v175, val_main_v176, val_main_v177, val_main_v178, val_main_c_51, val_main_v179, val_main_v180, val_main_v181, val_main_v182, val_main_v183, val_main_c_52, val_main_v184, val_main_v185]
    try simp only [TRef.toBuf, TRef.ofBuf, cast_eq]
    try rfl

set_option maxHeartbeats 1600000 in
/-- Window 5 (69 operations) carries the staged values on. -/
theorem step5 (W : Valuation τ sig (Elt F)) (h : Live4 A0 A1 W) : Live5 A0 A1 (after ops5 W) := by
  obtain ⟨h_arg0, h_arg1, h_v2, h_v34, h_v84, h_v119, h_v158, h_v159, h_v183, h_v185⟩ := h
  refine ⟨?_, ?_, ?_, ?_, ?_, ?_, ?_, ?_, ?_, ?_, ?_⟩
  · kept h_arg0
  · kept h_arg1
  · after_results_simp
    try simp only [Matrix.cons_val_zero, Matrix.cons_val]
    try after_results_simp
    try simp only [h_arg0, h_arg1, h_v2, h_v34, h_v84, h_v119, h_v158, h_v159, h_v183, h_v185]
    try simp only [val_main_v186, val_main_c_53, val_main_v187, val_main_v188, val_main_c_54, val_main_c_55, val_main_call8_v0, val_main_call8_v1, val_main_v189, val_main_c_56, val_main_v190, val_main_v191, val_main_c_57, val_main_call9_v0, val_main_call9_v1, val_main_v192, val_main_c_58, val_main_v193, val_main_v194, val_main_call10_v0, val_main_v195, val_main_v196, val_main_c_59, val_main_v197, val_main_v198, val_main_c_60, val_main_call12_v0, val_main_call12_v1, val_main_v199, val_main_c_61, val_main_call13_v0, val_main_call13_v1, val_main_v200, val_main_v201, val_main_c_62, val_main_v202, val_main_v203, val_main_c_63, val_main_v204, val_main_v205, val_main_c_64, val_main_v206, val_main_v207, val_main_c_65, val_main_v208, val_main_v209, val_main_c_66, val_main_v210, val_main_v211, val_main_c_67, val_main_v212, val_main_v213, val_main_c_68, val_main_v214, val_main_v215, val_main_c_69, val_main_v216, val_main_v217, val_main_c_70, val_main_v218, val_main_v219, val_main_c_71, val_main_v220, val_main_v221, val_main_c_72, val_main_v222, val_main_v223, val_main_c_73, val_main_v224]
    try simp only [TRef.toBuf, TRef.ofBuf, cast_eq]
    try rfl
  · after_results_simp
    try simp only [Matrix.cons_val_zero, Matrix.cons_val]
    try after_results_simp
    try simp only [h_arg0, h_arg1, h_v2, h_v34, h_v84, h_v119, h_v158, h_v159, h_v183, h_v185]
    try simp only [val_main_v186, val_main_c_53, val_main_v187, val_main_v188, val_main_c_54, val_main_c_55, val_main_call8_v0, val_main_call8_v1, val_main_v189, val_main_c_56, val_main_v190, val_main_v191, val_main_c_57, val_main_call9_v0, val_main_call9_v1, val_main_v192, val_main_c_58, val_main_v193, val_main_v194, val_main_call10_v0, val_main_v195, val_main_v196, val_main_c_59, val_main_v197, val_main_v198, val_main_c_60, val_main_call12_v0, val_main_call12_v1, val_main_v199, val_main_c_61, val_main_call13_v0, val_main_call13_v1, val_main_v200, val_main_v201, val_main_c_62, val_main_v202, val_main_v203, val_main_c_63, val_main_v204, val_main_v205, val_main_c_64, val_main_v206, val_main_v207, val_main_c_65, val_main_v208, val_main_v209, val_main_c_66, val_main_v210, val_main_v211, val_main_c_67, val_main_v212, val_main_v213, val_main_c_68, val_main_v214, val_main_v215, val_main_c_69, val_main_v216, val_main_v217, val_main_c_70, val_main_v218, val_main_v219, val_main_c_71, val_main_v220, val_main_v221, val_main_c_72, val_main_v222, val_main_v223, val_main_c_73, val_main_v224]
    try simp only [TRef.toBuf, TRef.ofBuf, cast_eq]
    try rfl
  · after_results_simp
    try simp only [Matrix.cons_val_zero, Matrix.cons_val]
    try after_results_simp
    try simp only [h_arg0, h_arg1, h_v2, h_v34, h_v84, h_v119, h_v158, h_v159, h_v183, h_v185]
    try simp only [val_main_v186, val_main_c_53, val_main_v187, val_main_v188, val_main_c_54, val_main_c_55, val_main_call8_v0, val_main_call8_v1, val_main_v189, val_main_c_56, val_main_v190, val_main_v191, val_main_c_57, val_main_call9_v0, val_main_call9_v1, val_main_v192, val_main_c_58, val_main_v193, val_main_v194, val_main_call10_v0, val_main_v195, val_main_v196, val_main_c_59, val_main_v197, val_main_v198, val_main_c_60, val_main_call12_v0, val_main_call12_v1, val_main_v199, val_main_c_61, val_main_call13_v0, val_main_call13_v1, val_main_v200, val_main_v201, val_main_c_62, val_main_v202, val_main_v203, val_main_c_63, val_main_v204, val_main_v205, val_main_c_64, val_main_v206, val_main_v207, val_main_c_65, val_main_v208, val_main_v209, val_main_c_66, val_main_v210, val_main_v211, val_main_c_67, val_main_v212, val_main_v213, val_main_c_68, val_main_v214, val_main_v215, val_main_c_69, val_main_v216, val_main_v217, val_main_c_70, val_main_v218, val_main_v219, val_main_c_71, val_main_v220, val_main_v221, val_main_c_72, val_main_v222, val_main_v223, val_main_c_73, val_main_v224]
    try simp only [TRef.toBuf, TRef.ofBuf, cast_eq]
    try rfl
  · after_results_simp
    try simp only [Matrix.cons_val_zero, Matrix.cons_val]
    try after_results_simp
    try simp only [h_arg0, h_arg1, h_v2, h_v34, h_v84, h_v119, h_v158, h_v159, h_v183, h_v185]
    try simp only [val_main_v186, val_main_c_53, val_main_v187, val_main_v188, val_main_c_54, val_main_c_55, val_main_call8_v0, val_main_call8_v1, val_main_v189, val_main_c_56, val_main_v190, val_main_v191, val_main_c_57, val_main_call9_v0, val_main_call9_v1, val_main_v192, val_main_c_58, val_main_v193, val_main_v194, val_main_call10_v0, val_main_v195, val_main_v196, val_main_c_59, val_main_v197, val_main_v198, val_main_c_60, val_main_call12_v0, val_main_call12_v1, val_main_v199, val_main_c_61, val_main_call13_v0, val_main_call13_v1, val_main_v200, val_main_v201, val_main_c_62, val_main_v202, val_main_v203, val_main_c_63, val_main_v204, val_main_v205, val_main_c_64, val_main_v206, val_main_v207, val_main_c_65, val_main_v208, val_main_v209, val_main_c_66, val_main_v210, val_main_v211, val_main_c_67, val_main_v212, val_main_v213, val_main_c_68, val_main_v214, val_main_v215, val_main_c_69, val_main_v216, val_main_v217, val_main_c_70, val_main_v218, val_main_v219, val_main_c_71, val_main_v220, val_main_v221, val_main_c_72, val_main_v222, val_main_v223, val_main_c_73, val_main_v224]
    try simp only [TRef.toBuf, TRef.ofBuf, cast_eq]
    try rfl
  · after_results_simp
    try simp only [Matrix.cons_val_zero, Matrix.cons_val]
    try after_results_simp
    try simp only [h_arg0, h_arg1, h_v2, h_v34, h_v84, h_v119, h_v158, h_v159, h_v183, h_v185]
    try simp only [val_main_v186, val_main_c_53, val_main_v187, val_main_v188, val_main_c_54, val_main_c_55, val_main_call8_v0, val_main_call8_v1, val_main_v189, val_main_c_56, val_main_v190, val_main_v191, val_main_c_57, val_main_call9_v0, val_main_call9_v1, val_main_v192, val_main_c_58, val_main_v193, val_main_v194, val_main_call10_v0, val_main_v195, val_main_v196, val_main_c_59, val_main_v197, val_main_v198, val_main_c_60, val_main_call12_v0, val_main_call12_v1, val_main_v199, val_main_c_61, val_main_call13_v0, val_main_call13_v1, val_main_v200, val_main_v201, val_main_c_62, val_main_v202, val_main_v203, val_main_c_63, val_main_v204, val_main_v205, val_main_c_64, val_main_v206, val_main_v207, val_main_c_65, val_main_v208, val_main_v209, val_main_c_66, val_main_v210, val_main_v211, val_main_c_67, val_main_v212, val_main_v213, val_main_c_68, val_main_v214, val_main_v215, val_main_c_69, val_main_v216, val_main_v217, val_main_c_70, val_main_v218, val_main_v219, val_main_c_71, val_main_v220, val_main_v221, val_main_c_72, val_main_v222, val_main_v223, val_main_c_73, val_main_v224]
    try simp only [TRef.toBuf, TRef.ofBuf, cast_eq]
    try rfl
  · after_results_simp
    try simp only [Matrix.cons_val_zero, Matrix.cons_val]
    try after_results_simp
    try simp only [h_arg0, h_arg1, h_v2, h_v34, h_v84, h_v119, h_v158, h_v159, h_v183, h_v185]
    try simp only [val_main_v186, val_main_c_53, val_main_v187, val_main_v188, val_main_c_54, val_main_c_55, val_main_call8_v0, val_main_call8_v1, val_main_v189, val_main_c_56, val_main_v190, val_main_v191, val_main_c_57, val_main_call9_v0, val_main_call9_v1, val_main_v192, val_main_c_58, val_main_v193, val_main_v194, val_main_call10_v0, val_main_v195, val_main_v196, val_main_c_59, val_main_v197, val_main_v198, val_main_c_60, val_main_call12_v0, val_main_call12_v1, val_main_v199, val_main_c_61, val_main_call13_v0, val_main_call13_v1, val_main_v200, val_main_v201, val_main_c_62, val_main_v202, val_main_v203, val_main_c_63, val_main_v204, val_main_v205, val_main_c_64, val_main_v206, val_main_v207, val_main_c_65, val_main_v208, val_main_v209, val_main_c_66, val_main_v210, val_main_v211, val_main_c_67, val_main_v212, val_main_v213, val_main_c_68, val_main_v214, val_main_v215, val_main_c_69, val_main_v216, val_main_v217, val_main_c_70, val_main_v218, val_main_v219, val_main_c_71, val_main_v220, val_main_v221, val_main_c_72, val_main_v222, val_main_v223, val_main_c_73, val_main_v224]
    try simp only [TRef.toBuf, TRef.ofBuf, cast_eq]
    try rfl
  · after_results_simp
    try simp only [Matrix.cons_val_zero, Matrix.cons_val]
    try after_results_simp
    try simp only [h_arg0, h_arg1, h_v2, h_v34, h_v84, h_v119, h_v158, h_v159, h_v183, h_v185]
    try simp only [val_main_v186, val_main_c_53, val_main_v187, val_main_v188, val_main_c_54, val_main_c_55, val_main_call8_v0, val_main_call8_v1, val_main_v189, val_main_c_56, val_main_v190, val_main_v191, val_main_c_57, val_main_call9_v0, val_main_call9_v1, val_main_v192, val_main_c_58, val_main_v193, val_main_v194, val_main_call10_v0, val_main_v195, val_main_v196, val_main_c_59, val_main_v197, val_main_v198, val_main_c_60, val_main_call12_v0, val_main_call12_v1, val_main_v199, val_main_c_61, val_main_call13_v0, val_main_call13_v1, val_main_v200, val_main_v201, val_main_c_62, val_main_v202, val_main_v203, val_main_c_63, val_main_v204, val_main_v205, val_main_c_64, val_main_v206, val_main_v207, val_main_c_65, val_main_v208, val_main_v209, val_main_c_66, val_main_v210, val_main_v211, val_main_c_67, val_main_v212, val_main_v213, val_main_c_68, val_main_v214, val_main_v215, val_main_c_69, val_main_v216, val_main_v217, val_main_c_70, val_main_v218, val_main_v219, val_main_c_71, val_main_v220, val_main_v221, val_main_c_72, val_main_v222, val_main_v223, val_main_c_73, val_main_v224]
    try simp only [TRef.toBuf, TRef.ofBuf, cast_eq]
    try rfl
  · after_results_simp
    try simp only [Matrix.cons_val_zero, Matrix.cons_val]
    try after_results_simp
    try simp only [h_arg0, h_arg1, h_v2, h_v34, h_v84, h_v119, h_v158, h_v159, h_v183, h_v185]
    try simp only [val_main_v186, val_main_c_53, val_main_v187, val_main_v188, val_main_c_54, val_main_c_55, val_main_call8_v0, val_main_call8_v1, val_main_v189, val_main_c_56, val_main_v190, val_main_v191, val_main_c_57, val_main_call9_v0, val_main_call9_v1, val_main_v192, val_main_c_58, val_main_v193, val_main_v194, val_main_call10_v0, val_main_v195, val_main_v196, val_main_c_59, val_main_v197, val_main_v198, val_main_c_60, val_main_call12_v0, val_main_call12_v1, val_main_v199, val_main_c_61, val_main_call13_v0, val_main_call13_v1, val_main_v200, val_main_v201, val_main_c_62, val_main_v202, val_main_v203, val_main_c_63, val_main_v204, val_main_v205, val_main_c_64, val_main_v206, val_main_v207, val_main_c_65, val_main_v208, val_main_v209, val_main_c_66, val_main_v210, val_main_v211, val_main_c_67, val_main_v212, val_main_v213, val_main_c_68, val_main_v214, val_main_v215, val_main_c_69, val_main_v216, val_main_v217, val_main_c_70, val_main_v218, val_main_v219, val_main_c_71, val_main_v220, val_main_v221, val_main_c_72, val_main_v222, val_main_v223, val_main_c_73, val_main_v224]
    try simp only [TRef.toBuf, TRef.ofBuf, cast_eq]
    try rfl
  · after_results_simp
    try simp only [Matrix.cons_val_zero, Matrix.cons_val]
    try after_results_simp
    try simp only [h_arg0, h_arg1, h_v2, h_v34, h_v84, h_v119, h_v158, h_v159, h_v183, h_v185]
    try simp only [val_main_v186, val_main_c_53, val_main_v187, val_main_v188, val_main_c_54, val_main_c_55, val_main_call8_v0, val_main_call8_v1, val_main_v189, val_main_c_56, val_main_v190, val_main_v191, val_main_c_57, val_main_call9_v0, val_main_call9_v1, val_main_v192, val_main_c_58, val_main_v193, val_main_v194, val_main_call10_v0, val_main_v195, val_main_v196, val_main_c_59, val_main_v197, val_main_v198, val_main_c_60, val_main_call12_v0, val_main_call12_v1, val_main_v199, val_main_c_61, val_main_call13_v0, val_main_call13_v1, val_main_v200, val_main_v201, val_main_c_62, val_main_v202, val_main_v203, val_main_c_63, val_main_v204, val_main_v205, val_main_c_64, val_main_v206, val_main_v207, val_main_c_65, val_main_v208, val_main_v209, val_main_c_66, val_main_v210, val_main_v211, val_main_c_67, val_main_v212, val_main_v213, val_main_c_68, val_main_v214, val_main_v215, val_main_c_69, val_main_v216, val_main_v217, val_main_c_70, val_main_v218, val_main_v219, val_main_c_71, val_main_v220, val_main_v221, val_main_c_72, val_main_v222, val_main_v223, val_main_c_73, val_main_v224]
    try simp only [TRef.toBuf, TRef.ofBuf, cast_eq]
    try rfl

set_option maxHeartbeats 1600000 in
/-- Window 6 (11 operations) carries the staged values on. -/
theorem step6 (W : Valuation τ sig (Elt F)) (h : Live5 A0 A1 W) : Live6 A0 A1 (after ops6 W) := by
  obtain ⟨h_arg0, h_arg1, h_v200, h_v201, h_v205, h_v209, h_v213, h_v215, h_v219, h_v223, h_v224⟩ := h
  refine ⟨?_, ?_, ?_⟩
  · kept h_arg0
  · kept h_arg1
  · after_results_simp
    try simp only [Matrix.cons_val_zero, Matrix.cons_val]
    try after_results_simp
    try simp only [h_arg0, h_arg1, h_v200, h_v201, h_v205, h_v209, h_v213, h_v215, h_v219, h_v223, h_v224]
    try simp only [val_main_v225, val_main_v226, val_main_v227, val_main_v228, val_main_v229, val_main_v230, val_main_v231, val_main_v232, val_main_v233, val_main_v234, val_main_v235]
    try simp only [TRef.toBuf, TRef.ofBuf, cast_eq]
    congr 2
    simp only [List.cons.injEq, Sigma.mk.injEq, heq_eq_eq, true_and, and_true]
    refine ⟨?_, ?_, ?_, ?_, ?_, ?_, ?_, ?_⟩ <;>
      (after_results_simp; simp only [h_arg0, h_arg1, h_v200, h_v201, h_v205, h_v209, h_v213, h_v215, h_v219, h_v223, h_v224])

/-! ## The whole line -/

/-- After all 335 operations, from contents holding the arguments: the result at its staged value, the arguments kept. -/
theorem after_ops (V : Valuation τ sig (Elt F)) (h0 : V (Proc.devRef .tc main_arg0) = A0) (h1 : V (Proc.devRef .tc main_arg1) = A1) :
    Live6 A0 A1 (after ops V) := by
  show Live6 A0 A1 (after (ops1 ++ (ops2 ++ (ops3 ++ (ops4 ++ (ops5 ++ (ops6)))))) V)
  simp only [after_append]
  exact step6 A0 A1 _ (step5 A0 A1 _ (step4 A0 A1 _ (step3 A0 A1 _ (step2 A0 A1 _ (step1 A0 A1 _ ⟨h0, h1⟩)))))

/-- THE REFERENCE'S RUN: every weakly fair execution of @main terminates with the result at `val_main_v235` of the two
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v235)
        = val_main_v235 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have L := after_ops (m ((c.tc : Thread nD τ).loc main_arg0)) (m ((c.tc : Thread nD τ).loc main_arg1))
        (launchContents m c) rfl rfl
      ⟨(h c main_v235).trans L.2.2, (h c main_arg0).trans L.1, (h c main_arg1).trans L.2.1⟩)
    (run_seq scopedRefs_eq scopedSems_eq defs main (fun _ => ops) main_eq (fun _ => ops_sub) m ρ (fun _ => ops_fresh))

end Cert.ReferenceIdeal.Windows

end
-- ==== Proof.RefLanes.lean ====
/-
  The reference, one entry at a time.

  The reference converts both arguments to integers, slices out each of the eight words of every entry (r, c) as a
  1024 × 4096 plane, computes plane by plane — every operation acts entry by entry — and joins the eight result planes
  along a new last axis before converting back. Read at an entry i = (r, c), each intermediate plane is the corresponding
  function of module BitMul of the operands' words at (r, c): the word lemmas read a slice, the stage lemmas follow the
  arithmetic in the order of the source (fields, product and scale, leading bit, the normal and the subnormal path,
  selection, the eight result words), and `value_eq` reads the join. The reference's shifts are the host's and its negation is
  written as such; BitMul's `shl_host`, `sar_host` and `neg_eq_zero_sub` turn them into the kernel's spelling.
-/
import proofs.«100081_j76312978916090_2_alg».proof.Proof.RefStages
import proofs.«100081_j76312978916090_2_alg».proof.Proof.BitMul
import Idealize.ShloMosaic.Lib.Pipeline.Value
import Idealize.ShloMosaic.Lib.ValueIdx

set_option maxRecDepth 16384

noncomputable section

namespace Cert.ReferenceIdeal.Lanes

open Cert.ReferenceIdeal Cert.ReferenceIdeal.Gen Cert.ReferenceIdeal.ReadP Idealize.ShloMosaic Idealize.ShloMosaic.TcCoe
open Idealize.ShloMosaic.ValueIdx Cert.BitMul

variable {F : FTy → Type} [FloatOps F]
variable (x0 x1 : (⟨S1024x4096x8, .f32⟩ : BufTy).Contents (Elt F)) (i : S1024x4096.Idx)

/-! ## The words: a slice of the converted argument, its unit axis dropped -/

set_option hygiene false in
/-- Entry i of plane k comes from entry (i 0, i 1, k) of the argument: the row-major position i 0 · 4096 + i 1 splits back
    into (i 0, i 1), and the slice's offset on the last axis is k. -/
local macro "plane_index" : tactic => `(tactic| (
  funext a; apply Fin.ext
  have h0 : (i 0).val < 1024 := (i 0).isLt
  have h1 : (i 1).val < 4096 := (i 1).isLt
  match a with
  | ⟨0, _⟩ => (show ((i 0).val * 4096 + (i 1).val) / 4096 = (i 0).val; omega)
  | ⟨1, _⟩ => (show ((i 0).val * 4096 + (i 1).val) / 1 % 4096 = (i 1).val; omega)
  | ⟨2, _⟩ => rfl))

theorem word_a0 : val_main_v2 (F := F) x0 i = wordsAt x0 (i 0) (i 1) 0 := by
  rw [val_main_v2_apply, val_main_v1_apply, val_main_v0_apply]
  refine congrArg (fun j => FloatOps.fptosi 32 (x0 j)) ?_
  plane_index
theorem word_a1 : val_main_v4 (F := F) x0 i = wordsAt x0 (i 0) (i 1) 1 := by
  rw [val_main_v4_apply, val_main_v3_apply, val_main_v0_apply]
  refine congrArg (fun j => FloatOps.fptosi 32 (x0 j)) ?_
  plane_index
theorem word_a2 : val_main_v8 (F := F) x0 i = wordsAt x0 (i 0) (i 1) 2 := by
  rw [val_main_v8_apply, val_main_v7_apply, val_main_v0_apply]
  refine congrArg (fun j => FloatOps.fptosi 32 (x0 j)) ?_
  plane_index
theorem word_a3 : val_main_v13 (F := F) x0 i = wordsAt x0 (i 0) (i 1) 3 := by
  rw [val_main_v13_apply, val_main_v12_apply, val_main_v0_apply]
  refine congrArg (fun j => FloatOps.fptosi 32 (x0 j)) ?_
  plane_index
theorem word_a4 : val_main_v18 (F := F) x0 i = wordsAt x0 (i 0) (i 1) 4 := by
  rw [val_main_v18_apply, val_main_v17_apply, val_main_v0_apply]
  refine congrArg (fun j => FloatOps.fptosi 32 (x0 j)) ?_
  plane_index
theorem word_a5 : val_main_v21 (F := F) x0 i = wordsAt x0 (i 0) (i 1) 5 := by
  rw [val_main_v21_apply, val_main_v20_apply, val_main_v0_apply]
  refine congrArg (fun j => FloatOps.fptosi 32 (x0 j)) ?_
  plane_index
theorem word_a6 : val_main_v25 (F := F) x0 i = wordsAt x0 (i 0) (i 1) 6 := by
  rw [val_main_v25_apply, val_main_v24_apply, val_main_v0_apply]
  refine congrArg (fun j => FloatOps.fptosi 32 (x0 j)) ?_
  plane_index
theorem word_a7 : val_main_v30 (F := F) x0 i = wordsAt x0 (i 0) (i 1) 7 := by
  rw [val_main_v30_apply, val_main_v29_apply, val_main_v0_apply]
  refine congrArg (fun j => FloatOps.fptosi 32 (x0 j)) ?_
  plane_index
theorem word_b0 : val_main_v34 (F := F) x1 i = wordsAt x1 (i 0) (i 1) 0 := by
  rw [val_main_v34_apply, val_main_v33_apply, val_main_v32_apply]
  refine congrArg (fun j => FloatOps.fptosi 32 (x1 j)) ?_
  plane_index
theorem word_b1 : val_main_v36 (F := F) x1 i = wordsAt x1 (i 0) (i 1) 1 := by
  rw [val_main_v36_apply, val_main_v35_apply, val_main_v32_apply]
  refine congrArg (fun j => FloatOps.fptosi 32 (x1 j)) ?_
  plane_index
theorem word_b2 : val_main_v40 (F := F) x1 i = wordsAt x1 (i 0) (i 1) 2 := by
  rw [val_main_v40_apply, val_main_v39_apply, val_main_v32_apply]
  refine congrArg (fun j => FloatOps.fptosi 32 (x1 j)) ?_
  plane_index
theorem word_b3 : val_main_v45 (F := F) x1 i = wordsAt x1 (i 0) (i 1) 3 := by
  rw [val_main_v45_apply, val_main_v44_apply, val_main_v32_apply]
  refine congrArg (fun j => FloatOps.fptosi 32 (x1 j)) ?_
  plane_index
theorem word_b4 : val_main_v50 (F := F) x1 i = wordsAt x1 (i 0) (i 1) 4 := by
  rw [val_main_v50_apply, val_main_v49_apply, val_main_v32_apply]
  refine congrArg (fun j => FloatOps.fptosi 32 (x1 j)) ?_
  plane_index
theorem word_b5 : val_main_v53 (F := F) x1 i = wordsAt x1 (i 0) (i 1) 5 := by
  rw [val_main_v53_apply, val_main_v52_apply, val_main_v32_apply]
  refine congrArg (fun j => FloatOps.fptosi 32 (x1 j)) ?_
  plane_index
theorem word_b6 : val_main_v57 (F := F) x1 i = wordsAt x1 (i 0) (i 1) 6 := by
  rw [val_main_v57_apply, val_main_v56_apply, val_main_v32_apply]
  refine congrArg (fun j => FloatOps.fptosi 32 (x1 j)) ?_
  plane_index
theorem word_b7 : val_main_v62 (F := F) x1 i = wordsAt x1 (i 0) (i 1) 7 := by
  rw [val_main_v62_apply, val_main_v61_apply, val_main_v32_apply]
  refine congrArg (fun j => FloatOps.fptosi 32 (x1 j)) ?_
  plane_index

/-! ## The arithmetic, stage by stage -/

set_option hygiene false in
/-- Every operation strictly inside a stage, read at an entry from its operands at the same entry (a constant at its
    value). -/
local macro "ref_steps" : tactic => `(tactic| simp only [
    val_main_c_apply, val_main_v5_apply, val_main_v6_apply, val_main_c_0_apply, val_main_v9_apply, val_main_v10_apply,
    val_main_v11_apply, val_main_c_1_apply, val_main_v14_apply, val_main_v15_apply, val_main_v16_apply, val_main_c_2_apply,
    val_main_v22_apply, val_main_v23_apply, val_main_c_3_apply, val_main_v26_apply, val_main_v27_apply, val_main_v28_apply,
    val_main_c_4_apply, val_main_v37_apply, val_main_v38_apply, val_main_c_5_apply, val_main_v41_apply, val_main_v42_apply,
    val_main_v43_apply, val_main_c_6_apply, val_main_v46_apply, val_main_v47_apply, val_main_v48_apply, val_main_c_7_apply,
    val_main_v54_apply, val_main_v55_apply, val_main_c_8_apply, val_main_v58_apply, val_main_v59_apply, val_main_v60_apply,
    val_main_c_9_apply, val_main_v64_apply, val_main_v65_apply, val_main_c_10_apply, val_main_v66_apply, val_main_v67_apply,
    val_main_v68_apply, val_main_c_11_apply, val_main_v69_apply, val_main_v70_apply, val_main_c_12_apply, val_main_v71_apply,
    val_main_v72_apply, val_main_v73_apply, val_main_c_13_apply, val_main_v74_apply, val_main_v75_apply, val_main_c_14_apply,
    val_main_call2_v0_apply, val_main_call2_v1_apply, val_main_v76_apply, val_main_c_15_apply, val_main_v77_apply,
    val_main_v78_apply, val_main_c_16_apply, val_main_v79_apply, val_main_v80_apply, val_main_c_17_apply,
    val_main_call3_v0_apply, val_main_call3_v1_apply, val_main_v81_apply, val_main_c_18_apply, val_main_v82_apply,
    val_main_v83_apply, val_main_v85_apply, val_main_c_19_apply, val_main_v86_apply, val_main_c_20_apply, val_main_v88_apply,
    val_main_c_21_apply, val_main_v89_apply, val_main_v90_apply, val_main_v91_apply, val_main_v92_apply, val_main_c_22_apply,
    val_main_v93_apply, val_main_v94_apply, val_main_v95_apply, val_main_v96_apply, val_main_c_23_apply, val_main_v97_apply,
    val_main_v98_apply, val_main_v99_apply, val_main_v100_apply, val_main_c_24_apply, val_main_v101_apply, val_main_v102_apply,
    val_main_v103_apply, val_main_v104_apply, val_main_c_25_apply, val_main_v105_apply, val_main_v106_apply,
    val_main_v107_apply, val_main_v108_apply, val_main_c_26_apply, val_main_v109_apply, val_main_v110_apply,
    val_main_v111_apply, val_main_v112_apply, val_main_c_27_apply, val_main_v113_apply, val_main_v114_apply,
    val_main_v115_apply, val_main_v117_apply, val_main_c_28_apply, val_main_v118_apply, val_main_c_29_apply,
    val_main_v120_apply, val_main_v121_apply, val_main_c_30_apply, val_main_v122_apply, val_main_v123_apply,
    val_main_v124_apply, val_main_c_31_apply, val_main_v125_apply, val_main_v126_apply, val_main_v127_apply,
    val_main_v128_apply, val_main_v129_apply, val_main_c_32_apply, val_main_v130_apply, val_main_v131_apply,
    val_main_c_33_apply, val_main_v132_apply, val_main_v133_apply, val_main_v134_apply, val_main_v135_apply,
    val_main_c_34_apply, val_main_v136_apply, val_main_v137_apply, val_main_c_35_apply, val_main_v138_apply,
    val_main_v139_apply, val_main_v140_apply, val_main_v141_apply, val_main_c_36_apply, val_main_v142_apply,
    val_main_v143_apply, val_main_v144_apply, val_main_v145_apply, val_main_v146_apply, val_main_c_37_apply,
    val_main_v148_apply, val_main_v149_apply, val_main_c_38_apply, val_main_v150_apply, val_main_v151_apply,
    val_main_c_39_apply, val_main_call4_v0_apply, val_main_call4_v1_apply, val_main_v152_apply, val_main_v153_apply,
    val_main_c_40_apply, val_main_v154_apply, val_main_v155_apply, val_main_c_41_apply, val_main_v156_apply,
    val_main_v157_apply, val_main_c_42_apply, val_main_call5_v0_apply, val_main_call5_v1_apply, val_main_c_43_apply,
    val_main_call6_v0_apply, val_main_call6_v1_apply, val_main_c_44_apply, val_main_v160_apply, val_main_v161_apply,
    val_main_v162_apply, val_main_c_45_apply, val_main_c_46_apply, val_main_call7_v0_apply, val_main_call7_v1_apply,
    val_main_call7_v2_apply, val_main_call7_v3_apply, val_main_call7_v4_apply, val_main_v163_apply, val_main_v164_apply,
    val_main_v165_apply, val_main_v166_apply, val_main_c_47_apply, val_main_v167_apply, val_main_v168_apply,
    val_main_c_48_apply, val_main_v169_apply, val_main_v170_apply, val_main_v171_apply, val_main_v172_apply,
    val_main_c_49_apply, val_main_v173_apply, val_main_v174_apply, val_main_c_50_apply, val_main_v175_apply,
    val_main_v176_apply, val_main_v177_apply, val_main_v178_apply, val_main_c_51_apply, val_main_v179_apply,
    val_main_v180_apply, val_main_v181_apply, val_main_v182_apply, val_main_v183_apply, val_main_c_52_apply,
    val_main_v184_apply, val_main_v185_apply, val_main_c_53_apply, val_main_v187_apply, val_main_v188_apply,
    val_main_c_54_apply, val_main_c_55_apply, val_main_call8_v0_apply, val_main_call8_v1_apply, val_main_v189_apply,
    val_main_c_56_apply, val_main_v190_apply, val_main_v191_apply, val_main_c_57_apply, val_main_call9_v0_apply,
    val_main_call9_v1_apply, val_main_v192_apply, val_main_c_58_apply, val_main_v193_apply, val_main_v194_apply,
    val_main_call10_v0_apply, val_main_v195_apply, val_main_v196_apply, val_main_c_59_apply, val_main_v197_apply,
    val_main_v198_apply, val_main_c_60_apply, val_main_call12_v0_apply, val_main_call12_v1_apply, val_main_c_61_apply,
    val_main_call13_v0_apply, val_main_call13_v1_apply, val_main_v201_apply, val_main_c_62_apply, val_main_v202_apply,
    val_main_v203_apply, val_main_c_63_apply, val_main_v204_apply, val_main_v205_apply, val_main_c_64_apply,
    val_main_v206_apply, val_main_v207_apply, val_main_c_65_apply, val_main_v208_apply, val_main_v209_apply,
    val_main_c_66_apply, val_main_v210_apply, val_main_v211_apply, val_main_c_67_apply, val_main_v212_apply,
    val_main_v213_apply, val_main_c_68_apply, val_main_v214_apply, val_main_v215_apply, val_main_c_69_apply,
    val_main_v216_apply, val_main_v217_apply, val_main_c_70_apply, val_main_v218_apply, val_main_v219_apply,
    val_main_c_71_apply, val_main_v220_apply, val_main_v221_apply, val_main_c_72_apply, val_main_v222_apply,
    val_main_v223_apply, val_main_c_73_apply, val_main_v224_apply, val_main_v225_apply])

/-- At entry i: the first operand's exponent field. -/
theorem ref_eA : val_main_v19 (F := F) x0 i = eA (wordsAt x0 (i 0) (i 1)) := by
  rw [val_main_v19_apply]
  try ref_steps
  simp only [word_a0, word_a1, word_a2, word_a3, word_a4, word_a5, word_a6, word_a7, word_b0, word_b1, word_b2, word_b3, word_b4, word_b5, word_b6, word_b7, shl_host, sar_host, neg_eq_zero_sub]
  rfl

/-- At entry i: its mantissa field. -/
theorem ref_mA : val_main_v31 (F := F) x0 i = mA (wordsAt x0 (i 0) (i 1)) := by
  rw [val_main_v31_apply]
  try ref_steps
  simp only [word_a0, word_a1, word_a2, word_a3, word_a4, word_a5, word_a6, word_a7, word_b0, word_b1, word_b2, word_b3, word_b4, word_b5, word_b6, word_b7, ref_eA, shl_host, sar_host, neg_eq_zero_sub]
  rfl

/-- At entry i: the second operand's exponent field. -/
theorem ref_eB : val_main_v51 (F := F) x1 i = eB (wordsAt x1 (i 0) (i 1)) := by
  rw [val_main_v51_apply]
  try ref_steps
  simp only [word_a0, word_a1, word_a2, word_a3, word_a4, word_a5, word_a6, word_a7, word_b0, word_b1, word_b2, word_b3, word_b4, word_b5, word_b6, word_b7, ref_eA, ref_mA, shl_host, sar_host, neg_eq_zero_sub]
  rfl

/-- At entry i: its mantissa field. -/
theorem ref_mB : val_main_v63 (F := F) x1 i = mB (wordsAt x1 (i 0) (i 1)) := by
  rw [val_main_v63_apply]
  try ref_steps
  simp only [word_a0, word_a1, word_a2, word_a3, word_a4, word_a5, word_a6, word_a7, word_b0, word_b1, word_b2, word_b3, word_b4, word_b5, word_b6, word_b7, ref_eA, ref_mA, ref_eB, shl_host, sar_host, neg_eq_zero_sub]
  rfl

/-- At entry i: the product of the significands. -/
theorem ref_M : val_main_v84 (F := F) x0 x1 i = pM (wordsAt x0 (i 0) (i 1)) (wordsAt x1 (i 0) (i 1)) := by
  rw [val_main_v84_apply]
  try ref_steps
  simp only [word_a0, word_a1, word_a2, word_a3, word_a4, word_a5, word_a6, word_a7, word_b0, word_b1, word_b2, word_b3, word_b4, word_b5, word_b6, word_b7, ref_eA, ref_mA, ref_eB, ref_mB, shl_host, sar_host, neg_eq_zero_sub]
  rfl

/-- At entry i: the scale. -/
theorem ref_E : val_main_v87 (F := F) x0 x1 i = pE (wordsAt x0 (i 0) (i 1)) (wordsAt x1 (i 0) (i 1)) := by
  rw [val_main_v87_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, shl_host, sar_host, neg_eq_zero_sub]
  rfl

/-- At entry i: the leading bit's position. -/
theorem ref_P : val_main_v116 (F := F) x0 x1 i = pP (wordsAt x0 (i 0) (i 1)) (wordsAt x1 (i 0) (i 1)) := by
  rw [val_main_v116_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, shl_host, sar_host, neg_eq_zero_sub]
  rfl

/-- At entry i: the candidate biased exponent. -/
theorem ref_B : val_main_v119 (F := F) x0 x1 i = pB (wordsAt x0 (i 0) (i 1)) (wordsAt x1 (i 0) (i 1)) := by
  rw [val_main_v119_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, shl_host, sar_host, neg_eq_zero_sub]
  rfl

/-- At entry i: the rounded four-bit mantissa of the normal path. -/
theorem ref_M4 : val_main_v147 (F := F) x0 x1 i = pM4 (wordsAt x0 (i 0) (i 1)) (wordsAt x1 (i 0) (i 1)) := by
  rw [val_main_v147_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, shl_host, sar_host, neg_eq_zero_sub]
  rfl

/-- At entry i: the normal path's exponent. -/
theorem ref_EN : val_main_v158 (F := F) x0 x1 i = expNorm (pB (wordsAt x0 (i 0) (i 1)) (wordsAt x1 (i 0) (i 1))) (pM4 (wordsAt x0 (i 0) (i 1)) (wordsAt x1 (i 0) (i 1))) := by
  rw [val_main_v158_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, shl_host, sar_host, neg_eq_zero_sub]
  rfl

/-- At entry i: the normal path's mantissa. -/
theorem ref_MN : val_main_v159 (F := F) x0 x1 i = manNorm (pB (wordsAt x0 (i 0) (i 1)) (wordsAt x1 (i 0) (i 1))) (pM4 (wordsAt x0 (i 0) (i 1)) (wordsAt x1 (i 0) (i 1))) := by
  rw [val_main_v159_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, shl_host, sar_host, neg_eq_zero_sub]
  rfl

/-- At entry i: the subnormal path's mantissa. -/
theorem ref_MS : val_main_v186 (F := F) x0 x1 i = pMS (wordsAt x0 (i 0) (i 1)) (wordsAt x1 (i 0) (i 1)) := by
  rw [val_main_v186_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, shl_host, sar_host, neg_eq_zero_sub]
  rfl

/-- At entry i: the result's exponent field. -/
theorem ref_EO : val_main_v199 (F := F) x0 x1 i = outE (wordsAt x0 (i 0) (i 1)) (wordsAt x1 (i 0) (i 1)) := by
  rw [val_main_v199_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, ref_MS, shl_host, sar_host, neg_eq_zero_sub]
  rfl

/-- At entry i: the result's mantissa field. -/
theorem ref_MO : val_main_v200 (F := F) x0 x1 i = outM (wordsAt x0 (i 0) (i 1)) (wordsAt x1 (i 0) (i 1)) := by
  rw [val_main_v200_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, ref_MS, ref_EO, shl_host, sar_host, neg_eq_zero_sub]
  rfl

/-- At entry i: result word 0: the sign. -/
theorem ref_w0 : val_main_v201 (F := F) x0 x1 i = mulWords (wordsAt x0 (i 0) (i 1)) (wordsAt x1 (i 0) (i 1)) 0 := by
  rw [val_main_v201_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, ref_MS, ref_EO, ref_MO, shl_host, sar_host, neg_eq_zero_sub]
  rfl

/-- At entry i: result word 1. -/
theorem ref_w1 : val_main_v205 (F := F) x0 x1 i = mulWords (wordsAt x0 (i 0) (i 1)) (wordsAt x1 (i 0) (i 1)) 1 := by
  rw [val_main_v205_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, ref_MS, ref_EO, ref_MO, shl_host, sar_host, neg_eq_zero_sub]
  rfl

/-- At entry i: result word 2. -/
theorem ref_w2 : val_main_v209 (F := F) x0 x1 i = mulWords (wordsAt x0 (i 0) (i 1)) (wordsAt x1 (i 0) (i 1)) 2 := by
  rw [val_main_v209_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, ref_MS, ref_EO, ref_MO, shl_host, sar_host, neg_eq_zero_sub]
  rfl

/-- At entry i: result word 3. -/
theorem ref_w3 : val_main_v213 (F := F) x0 x1 i = mulWords (wordsAt x0 (i 0) (i 1)) (wordsAt x1 (i 0) (i 1)) 3 := by
  rw [val_main_v213_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, ref_MS, ref_EO, ref_MO, shl_host, sar_host, neg_eq_zero_sub]
  rfl

/-- At entry i: result word 4. -/
theorem ref_w4 : val_main_v215 (F := F) x0 x1 i = mulWords (wordsAt x0 (i 0) (i 1)) (wordsAt x1 (i 0) (i 1)) 4 := by
  rw [val_main_v215_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, ref_MS, ref_EO, ref_MO, shl_host, sar_host, neg_eq_zero_sub]
  rfl

/-- At entry i: result word 5. -/
theorem ref_w5 : val_main_v219 (F := F) x0 x1 i = mulWords (wordsAt x0 (i 0) (i 1)) (wordsAt x1 (i 0) (i 1)) 5 := by
  rw [val_main_v219_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, ref_MS, ref_EO, ref_MO, shl_host, sar_host, neg_eq_zero_sub]
  rfl

/-- At entry i: result word 6. -/
theorem ref_w6 : val_main_v223 (F := F) x0 x1 i = mulWords (wordsAt x0 (i 0) (i 1)) (wordsAt x1 (i 0) (i 1)) 6 := by
  rw [val_main_v223_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, ref_MS, ref_EO, ref_MO, shl_host, sar_host, neg_eq_zero_sub]
  rfl

/-- At entry i: result word 7. -/
theorem ref_w7 : val_main_v225 (F := F) x0 x1 i = mulWords (wordsAt x0 (i 0) (i 1)) (wordsAt x1 (i 0) (i 1)) 7 := by
  rw [val_main_v225_apply]
  try ref_steps
  simp only [word_a0, word_a1, word_a2, word_a3, word_a4, word_a5, word_a6, word_a7, word_b0, word_b1, word_b2, word_b3, word_b4, word_b5, word_b6, word_b7, ref_eA, ref_mA, ref_eB, ref_mB, ref_M, ref_E, ref_P, ref_B, ref_M4, ref_EN, ref_MN, ref_MS, ref_EO, ref_MO, shl_host, sar_host, neg_eq_zero_sub]
  rfl

/-! ## The join -/

/-- The eight result planes, each with a unit last axis, in the order they are joined. -/
def pieces : Fin 8 → (S1024x4096x1.Idx → BitVec 32)
  | 0 => val_main_v226 (F := F) x0 x1
  | 1 => val_main_v227 (F := F) x0 x1
  | 2 => val_main_v228 (F := F) x0 x1
  | 3 => val_main_v229 (F := F) x0 x1
  | 4 => val_main_v230 (F := F) x0 x1
  | 5 => val_main_v231 (F := F) x0 x1
  | 6 => val_main_v232 (F := F) x0 x1
  | 7 => val_main_v233 (F := F) x0 x1

/-- Piece k at (r, c, 0) is result word k of entry (r, c). -/
theorem piece_eq (r : Fin 1024) (c : Fin 4096) : ∀ k : Fin 8,
    pieces x0 x1 k (ix3 r c (0 : Fin 1)) = mulWords (wordsAt x0 r c) (wordsAt x1 r c) k
  | ⟨0, _⟩ => by
    show val_main_v226 (F := F) x0 x1 (ix3 r c (0 : Fin 1)) = _
    rw [val_main_v226_apply]
    exact ref_w0 x0 x1 _
  | ⟨1, _⟩ => by
    show val_main_v227 (F := F) x0 x1 (ix3 r c (0 : Fin 1)) = _
    rw [val_main_v227_apply]
    exact ref_w1 x0 x1 _
  | ⟨2, _⟩ => by
    show val_main_v228 (F := F) x0 x1 (ix3 r c (0 : Fin 1)) = _
    rw [val_main_v228_apply]
    exact ref_w2 x0 x1 _
  | ⟨3, _⟩ => by
    show val_main_v229 (F := F) x0 x1 (ix3 r c (0 : Fin 1)) = _
    rw [val_main_v229_apply]
    exact ref_w3 x0 x1 _
  | ⟨4, _⟩ => by
    show val_main_v230 (F := F) x0 x1 (ix3 r c (0 : Fin 1)) = _
    rw [val_main_v230_apply]
    exact ref_w4 x0 x1 _
  | ⟨5, _⟩ => by
    show val_main_v231 (F := F) x0 x1 (ix3 r c (0 : Fin 1)) = _
    rw [val_main_v231_apply]
    exact ref_w5 x0 x1 _
  | ⟨6, _⟩ => by
    show val_main_v232 (F := F) x0 x1 (ix3 r c (0 : Fin 1)) = _
    rw [val_main_v232_apply]
    exact ref_w6 x0 x1 _
  | ⟨7, _⟩ => by
    show val_main_v233 (F := F) x0 x1 (ix3 r c (0 : Fin 1)) = _
    rw [val_main_v233_apply]
    exact ref_w7 x0 x1 _

/-- THE REFERENCE'S RESULT is `G` of the two arguments. -/
theorem value_eq : val_main_v235 (F := F) x0 x1 = G x0 x1 := by
  funext j
  rw [val_main_v235_apply]
  refine congrArg (FloatOps.sitofp .f32) ?_
  have hcat := concatenate_ofFn_unit_apply (t := S1024x4096x8) (s₁ := S1024x4096x1) (2 : Fin 3) (pieces x0 x1)
    concatenates_S1024x4096x1_S1024x4096x1_S1024x4096x1_S1024x4096x1_S1024x4096x1_S1024x4096x1_S1024x4096x1_S1024x4096x1_S1024x4096x8_d2
    rfl rfl j ⟨(j 2).val, (j 2).isLt⟩ rfl (ix3 (j 0) (j 1) (0 : Fin 1))
    (fun b hb => match b, hb with
      | ⟨0, _⟩, _ => rfl
      | ⟨1, _⟩, _ => rfl
      | ⟨2, _⟩, hb => absurd rfl hb)
  exact (show val_main_v234 (F := F) x0 x1 j = _ from hcat).trans (piece_eq x0 x1 (j 0) (j 1) (j 2))

end Cert.ReferenceIdeal.Lanes

end
-- ==== Proof.lean ====
/-
  The kernel multiplies two arrays of 8-bit floating-point numbers (sign, four exponent bits, three mantissa bits), each
  number spelt as eight floats holding its bits: entry (r, c) of an argument is the eight floats (r, c, 0 … 7). Both programs
  read every float as an integer word, compute the product's eight words by integer arithmetic on the sixteen words of the
  two entries (module BitMul: decode, multiply the significands, find the leading bit, round to nearest even on the normal
  and on the subnormal path, select, re-encode), and write the words back as floats.

  The kernel moves the bit axis to the front, works on tiles of 128 × 512 entries with all eight planes, lane by lane, and
  moves the bit axis back (modules KernelLanes, KernelBlock, KernelArray). The reference slices the eight planes of the whole
  array, computes entry by entry and joins the result planes (modules RefStages, RefRun, RefWindows, RefLanes). Both end with the result
  array at ONE function of the two argument arrays, Cert.BitMul.G: at (r, c, k), word k of the product of entries (r, c).
  The two sides differ only in arrangement — which axis leads, tiles against the whole array — and in the spelling of
  two operations: the host's shifts, which at 32 bits agree with the vector unit's for every amount, and the host's
  negation against a subtraction from zero. No property of the inputs is used: the conversion of a float to an integer is
  the same function on both sides, whatever its argument.
-/
import proofs.«100081_j76312978916090_2_alg».proof.Defs
import proofs.«100081_j76312978916090_2_alg».proof.Proof.Gen.Kernel
import proofs.«100081_j76312978916090_2_alg».proof.Proof.Gen.Kernel.Skeleton
import proofs.«100081_j76312978916090_2_alg».proof.Proof.Gen.Kernel.Launch
import proofs.«100081_j76312978916090_2_alg».proof.Proof.Gen.Kernel.Points
import proofs.«100081_j76312978916090_2_alg».proof.Proof.Gen.Kernel.Frame
import proofs.«100081_j76312978916090_2_alg».proof.Proof.Gen.KernelIdeal
import proofs.«100081_j76312978916090_2_alg».proof.Proof.Gen.KernelIdeal.Skeleton
import proofs.«100081_j76312978916090_2_alg».proof.Proof.Gen.KernelIdeal.Launch
import proofs.«100081_j76312978916090_2_alg».proof.Proof.Gen.KernelIdeal.Points
import proofs.«100081_j76312978916090_2_alg».proof.Proof.Gen.KernelIdeal.Frame
import proofs.«100081_j76312978916090_2_alg».proof.Proof.Gen.ReferenceIdeal
import proofs.«100081_j76312978916090_2_alg».proof.Proof.Gen.Pre_finite_inputs
import proofs.«100081_j76312978916090_2_alg».proof.Proof.KernelArray
import proofs.«100081_j76312978916090_2_alg».proof.Proof.RefRun
import proofs.«100081_j76312978916090_2_alg».proof.Proof.RefWindows
import proofs.«100081_j76312978916090_2_alg».proof.Proof.RefLanes
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Windows.run (F := Ideal) m ρ)

/-- From memories that agree on the two arguments, the kernel and the reference both end with the result array at
    `Cert.BitMul.G` of the arguments: entry (r, c, k) is word k of the product of the operands' entries (r, c). -/
theorem algebraic : Cert.algebraic_KernelIdeal_ReferenceIdeal := by
  intro m ρ m' ρ' _ hagree
  refine ⟨fun c => Cert.BitMul.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.run (F := Ideal) m ρ, ?_⟩
  refine (θ_run Cert.ReferenceIdeal.defs _ _).mono (fun _ h c => ⟨(h c).1.trans ?_, (h c).2⟩)
    (Cert.ReferenceIdeal.Windows.run (F := Ideal) m' ρ')
  rw [Cert.ReferenceIdeal.Lanes.value_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
